-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96_0)) (v1 : (c : Dev Cert.KernelIdeal.nD) → Buf (Elt Ideal) ((c.tc : Thread Cert.KernelIdeal.nD Cert.KernelIdeal.τ).loc Cert.KernelIdeal.main_v96_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96_0) = v0 c
          ∧ r.2.mem ((c.tc : Thread Cert.KernelIdeal.nD Cert.KernelIdeal.τ).loc Cert.KernelIdeal.main_v96_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S64 .f32) (main_arg7 : FVec F S64x32 .f32) (main_arg8 : FVec F S32 .f32) (main_arg9 : FVec F S64x32 .f32) (main_arg10 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S64x32 .f32) (main_arg10 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S50000x1 : Shape := ⟨2, ![50000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S1x32 : Shape := ⟨2, ![1, 32]⟩
abbrev S512x32 : Shape := ⟨2, ![512, 32]⟩

abbrev nBuf : Space → Nat
  | .hbm => 130
  | .vmem => 27
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x1, .f32⟩
  | 56 => ⟨S800000x64, .f32⟩
  | 57 => ⟨S800000x64, .f32⟩
  | 58 => ⟨S_, .f32⟩
  | 59 => ⟨S50000x64, .f32⟩
  | 60 => ⟨S800000x1, .i32⟩
  | 61 => ⟨S50000x64, .f32⟩
  | 62 => ⟨S50000x1, .f32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000, .f32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S800000x1, .f32⟩
  | 98 => ⟨S800000x64, .f32⟩
  | 99 => ⟨S800000x64, .f32⟩
  | 100 => ⟨S_, .f32⟩
  | 101 => ⟨S50000x64, .f32⟩
  | 102 => ⟨S800000x1, .i32⟩
  | 103 => ⟨S50000x64, .f32⟩
  | 104 => ⟨S50000x1, .f32⟩
  | 105 => ⟨S50000x64, .f32⟩
  | 106 => ⟨S50000x64, .f32⟩
  | 107 => ⟨S50000x64, .f32⟩
  | 108 => ⟨S1x64, .f32⟩
  | 109 => ⟨S50000x64, .f32⟩
  | 110 => ⟨S_, .f32⟩
  | 111 => ⟨S512x64, .f32⟩
  | 112 => ⟨S50000x1, .i32⟩
  | 113 => ⟨S512x64, .f32⟩
  | 114 => ⟨S_, .f32⟩
  | 115 => ⟨S50000, .f32⟩
  | 116 => ⟨S_, .f32⟩
  | 117 => ⟨S512, .f32⟩
  | 118 => ⟨S50000x1, .i32⟩
  | 119 => ⟨S512, .f32⟩
  | 120 => ⟨S_, .f32⟩
  | 121 => ⟨S512, .f32⟩
  | 122 => ⟨S512, .f32⟩
  | 123 => ⟨S512x1, .f32⟩
  | 124 => ⟨S512x64, .f32⟩
  | 125 => ⟨S512x64, .f32⟩
  | 126 => ⟨S1x32, .f32⟩
  | 127 => ⟨S1x32, .f32⟩
  | _ => ⟨S50000x128, .f32⟩

abbrev hbmTy0_1 (i : Nat) : BufTy := match i % 128 with
  | 0 => ⟨S512x32, .f32⟩
  | 1 => ⟨S512x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S512x64, .f32⟩
  | .local _ .vmem, ⟨21, _⟩ => ⟨S64x32, .f32⟩
  | .local _ .vmem, ⟨22, _⟩ => ⟨S1x32, .f32⟩
  | .local _ .vmem, ⟨23, _⟩ => ⟨S64x32, .f32⟩
  | .local _ .vmem, ⟨24, _⟩ => ⟨S1x32, .f32⟩
  | .local _ .vmem, ⟨25, _⟩ => ⟨S512x32, .f32⟩
  | .local _ .vmem, ⟨26, _⟩ => ⟨S512x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96_0 : Ref sig .tc := ⟨.hbm, 128, rfl⟩
abbrev main_v96_1 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc4_stg6_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25
abbrev cc4_sem6_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S32_S1x32 : S32.ShapeCasts S1x32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x32_S512x32_1_0_0_1_n_n_wf : DotDims.WF S512x64 S64x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x32.size a ≤ S512x32.size a
  hwx4_5 : ∀ i : grid4.Coords, EltTy.bits .f32 = 32 ∨ (Rect.block (s := S512x32) S512x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x32.size a ≤ S512x32.size a
  hwx4_6 : ∀ i : grid4.Coords, EltTy.bits .f32 = 32 ∨ (Rect.block (s := S512x32) S512x32.size (cc4_transform_6 i) (hinb4_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v93) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v94) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96_0) S512x32.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v96_1) S512x32.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x32 : Shape := ⟨2, ![512, 32]⟩
abbrev S1x32 : Shape := ⟨2, ![1, 32]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x64, .f32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S50000, .f32⟩
  | 62 => ⟨S50000x1, .f32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000, .f32⟩
  | 109 => ⟨S50000x1, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S_, .f32⟩
  | 120 => ⟨S512x64, .f32⟩
  | 121 => ⟨S50000x1, .i32⟩
  | 122 => ⟨S512x64, .f32⟩
  | 123 => ⟨S_, .f32⟩
  | 124 => ⟨S50000, .f32⟩
  | 125 => ⟨S_, .f32⟩
  | 126 => ⟨S512, .f32⟩
  | 127 => ⟨S50000x1, .i32⟩
  | _ => ⟨S50000x128, .f32⟩

abbrev hbmTy0_1 (i : Nat) : BufTy := match i % 128 with
  | 0 => ⟨S512, .f32⟩
  | 1 => ⟨S_, .f32⟩
  | 2 => ⟨S512, .f32⟩
  | 3 => ⟨S512, .f32⟩
  | 4 => ⟨S512x1, .f32⟩
  | 5 => ⟨S512x64, .f32⟩
  | 6 => ⟨S512x64, .f32⟩
  | 7 => ⟨S512x32, .f32⟩
  | 8 => ⟨S1x32, .f32⟩
  | 9 => ⟨S512x32, .f32⟩
  | 10 => ⟨S512x32, .f32⟩
  | 11 => ⟨S512x32, .f32⟩
  | 12 => ⟨S1x32, .f32⟩
  | 13 => ⟨S512x32, .f32⟩
  | 14 => ⟨S512x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_16 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x32_S512x32_1_0_0_1_n_n_wf : DotDims.WF S512x64 S64x32 S512x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

class Facts : Prop extends Facts₀ where

variable [Facts]
-- ==== Proof.KernelRun.lean ====
/-
  The idealized kernel's run with every buffer named.

  The program is five kernel regions among stretches of host operations.  Its run is a chain of segments, and the buffer
  contents at each boundary are a fold from the launch memory: a host stretch applies its operations, a region replaces
  its arrays by what its write-backs leave.  Here the run is stated with the whole last boundary in its post: every
  unscoped buffer of a core ends at the fold's last contents.  The value of a result array is then a fact about the fold
  alone.
-/
import proofs.«117150_j46866683134564_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and in the final memory every unscoped buffer of every core holds the
    contents of the last boundary of the fold. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same at one TensorCore reference that is not scoped. -/
theorem read_final {r : PUnit × MemSt nD τ sig (Elt F)}
    (h : ∀ c : Dev nD, ∀ b ∈ Pipeline.ucRefs τ sig, r.2.mem (((c : Thread nD τ)).1, b) = W9 m ρ c b)
    (c : Dev nD) (b : Ref sig .tc) (hb : ¬ (Proc.devRef .tc b : DevRef τ sig).isScoped) :
    r.2.mem ((c : Thread nD τ).loc b) = W9 m ρ c (Proc.devRef .tc b) :=
  h c _ (mem_uc b hb)

end Cert.KernelIdeal.Whole

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«117150_j46866683134564_1_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.Region0.lean ====
/-
  Region 0 of the idealized kernel: a matrix product, one block of 5000 rows per grid point.

  At grid point t the body reads rows 5000·t … 5000·t + 4999 of the left array ([50000, 128]) and the whole right array
  ([128, 64]), multiplies them on the matrix unit into zeros (the change of float format before it is the identity over
  the extended reals), and writes the block back to the same rows of the result.  An entry of a block's product is the
  inner product of a row of the left array with a column of the right one, and the 10 blocks tile the 50000 rows, so
  the result array ends holding

      result[r, q] = Σ_{k < 128} left[r, k] · right[k, q],

  which is also what the host's `dot_general` of the two whole arrays holds.  Stated for any contents `V` of the
  core's buffers at the region's entry.
-/
import proofs.«117150_j46866683134564_1_alg».proof.Proof.Gen.KernelIdeal.Frame
import proofs.«117150_j46866683134564_1_alg».proof.Proof.LibMatmulNN
import proofs.«117150_j46866683134564_1_alg».proof.Proof.LibDotNN
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The left array's index for result entry `i` and contraction position `k`: (row of i, k). -/
abbrev leftAt (i : S50000x64.Idx) (k : Fin 128) : S50000x128.Idx := ix2 (⟨(i 0).val, (i 0).isLt⟩ : Fin 50000) k
/-- The right array's index for result entry `i` and contraction position `k`: (k, column of i). -/
abbrev rightAt (i : S50000x64.Idx) (k : Fin 128) : S128x64.Idx := ix2 k (⟨(i 1).val, (i 1).isLt⟩ : Fin 64)

/-- The product of the two whole arrays, entry by entry. -/
def product (X : FVec Ideal S50000x128 .f32) (W : FVec Ideal S128x64 .f32) : FVec Ideal S50000x64 .f32 :=
  fun i => ∑ k : Fin 128, X (leftAt i k) * W (rightAt i k)

/-- The host's `dot_general` of the whole arrays is that product. -/
theorem dotGeneral_eq_product (D : DotDims S50000x128 S128x64 S50000x64) (hD : D = DotDims.plain 50000 128 64)
    (X : FVec Ideal S50000x128 .f32) (W : FVec Ideal S128x64 .f32) :
    Host.dotGeneral D none X W = product X W := by
  funext i
  obtain ⟨p, q, rfl⟩ : ∃ (p : Fin 50000) (q : Fin 64), i = ix2 p q := ⟨i 0, i 1, eq_ix2 i⟩
  exact Cert.DotNN.dotGeneral_apply D hD none .single X W p q

/-- The body's stored value at an entry of the block: the inner product of the left block's row with the right
    block's column. -/
theorem payload_apply (x0 : Vec Ideal S5000x128 .f32) (x1 : Vec Ideal S128x64 .f32) (j : S5000x64.Idx) :
    k0_pay1 (F := Ideal) x0 x1 j
      = ∑ k : Fin 128, x0 (ix2 (⟨(j 0).val, (j 0).isLt⟩ : Fin 5000) k) * x1 (ix2 k (⟨(j 1).val, (j 1).isLt⟩ : Fin 64)) := by
  obtain ⟨p, q, rfl⟩ : ∃ (p : Fin 5000) (q : Fin 64), j = ix2 p q := ⟨j 0, j 1, eq_ix2 j⟩
  unfold k0_pay1
  exact Cert.MatmulNN.matmul_zero_apply dot_S5000x128_S128x64_S5000x64_1_0_0_1_n_n rfl none _ _ p q

/-- The windows' block indices over the grid: the left and the result windows move down one block of rows per
    point, the right window stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e00, e01, e10, e11, e20, e21⟩ := index_facts t
  funext j
  show k0_pay1 (iblk0 V c 0 t) (iblk0 V c 1 t) j = product (V c main_arg0) (V c main_arg3) (((cfg0.win 2).blk t).view.emb j)
  refine (payload_apply (iblk0 V c 0 t) (iblk0 V c 1 t) j).trans ?_
  refine Finset.sum_congr rfl fun k _ => ?_
  have h0 : ((cfg0.win 0).blk t).view.emb (ix2 (⟨(j 0).val, (j 0).isLt⟩ : Fin 5000) k)
      = leftAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (⟨(j 1).val, (j 1).isLt⟩ : Fin 64))
      = rightAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact congrArg₂ (· * ·)
    (show (V c main_arg0 : FVec Ideal S50000x128 .f32) (((cfg0.win 0).blk t).view.emb (ix2 (⟨(j 0).val, (j 0).isLt⟩ : Fin 5000) k))
        = (V c main_arg0 : FVec Ideal S50000x128 .f32) (leftAt (((cfg0.win 2).blk t).view.emb j) k) from congrArg _ h0)
    (show (V c main_arg3 : FVec Ideal S128x64 .f32) (((cfg0.win 1).blk t).view.emb (ix2 k (⟨(j 1).val, (j 1).isLt⟩ : Fin 64)))
        = (V c main_arg3 : FVec Ideal S128x64 .f32) (rightAt (((cfg0.win 2).blk t).view.emb j) k) from congrArg _ h1)

/-- An index of the result is in point `t`'s block iff each coordinate is in the block's range on its axis. -/
theorem mem_block (t : Fin cfg0.N) (i : S50000x64.Idx) :
    i ∈ ((cfg0.win 2).blk t).view.set
      ↔ ∀ a : Fin 2, win0_2.index t a * S5000x64.size a ≤ (i a).val ∧ (i a).val < win0_2.index t a * S5000x64.size a + S5000x64.size a := by
  show i ∈ ((View.whole main_v12).slice (win0_2.rect t)).set ↔ _
  rw [View.set_slice_whole, Rect.mem_set_unit]
  exact Iff.rfl

/-- Row r of the result lies in the block of point r / 5000. -/
theorem covered (i : S50000x64.Idx) :
    ∃ t : Fin cfg0.N, (cfg0.win 2).flush t = true ∧ i ∈ ((cfg0.win 2).blk t).view.set := by
  have h0 : (i 0).val < 50000 := (i 0).isLt
  have h1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e00, e01, e10, e11, e20, e21⟩ := index_facts t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The result array after the region: the product of the two arrays as the region finds them. -/
theorem array_eq (c : Dev nD) : (dat0 V c).arrAt 2 cfg0.N = product (V c main_arg0) (V c main_arg3) :=
  (dat0 V c).arrAt_eq_of_cover 2 (product (V c main_arg0) (V c main_arg3)) (fun t _ => flushed_eq V c t) covered

end Cert.KernelIdeal.Region0

end
-- ==== Proof.LibRowBias.lean ====
import Idealize.ShloMosaic.Lib.Pipeline.Value
import Idealize.ShloMosaic.Lib.ValueIdx
import Idealize.ShloMosaic.PureOps.Ideal.Laws

/-!
  A bias row added to every row of a matrix, read at an entry.

  A [1, b] row broadcast to [a, b] — by the host's `broadcast_in_dim` over axes (0, 1), or by a kernel body's
  `vector.broadcast` — has at entry (p, q) the row's entry q.  So over the extended reals

      (X + row)[p, q] = X[p, q] + row[q]      and      max(X + row, 0)[p, q] = max(X[p, q] + row[q], 0),

  whichever of the two spellings of the broadcast and of the zero (a scalar constant broadcast to [a, b], or a scalar
  splat) the program uses.  Generic in the extents a and b.
-/

noncomputable section

namespace Cert.RowBias

open Idealize.ShloMosaic Idealize.ShloMosaic.ValueIdx

variable {α : Type} {a b : Nat}

/-- A [1, b] row broadcast over axes (0, 1) to [a, b], at (p, q): the row's entry q. -/
theorem rowInDim_apply (B : (⟨2, ![1, b]⟩ : Shape).Idx → α)
    (hb : (⟨2, ![1, b]⟩ : Shape).BroadcastsInDim ⟨2, ![a, b]⟩ ![0, 1]) (p : Fin a) (q : Fin b) :
    broadcastInDim ⟨2, ![a, b]⟩ ![0, 1] hb B (ix2 p q) = B (ix2 (0 : Fin 1) q) := by
  refine broadcastInDim_apply _ _ _ _ (ix2 (0 : Fin 1) q) (fun d => ?_)
  match d with
  | ⟨0, _⟩ => rfl
  | ⟨1, _⟩ =>
    show q.val = if b = 1 then 0 else q.val
    split_ifs with h1
    · have := q.isLt; omega
    · rfl

/-- A [1, b] row broadcast by a kernel body to [a, b], at (p, q): the row's entry q. -/
theorem rowTo_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) (fun d => ?_)
  match d with
  | ⟨0, _⟩ => rfl
  | ⟨1, _⟩ =>
    show q.val = if b = 1 then 0 else q.val
    split_ifs with h1
    · have := q.isLt; omega
    · rfl

/-- A scalar broadcast to [a, b] by the host, at any entry: the scalar. -/
theorem scalarInDim_apply (z : (⟨0, ![]⟩ : Shape).Idx → α)
    (hz : (⟨0, ![]⟩ : Shape).BroadcastsInDim ⟨2, ![a, b]⟩ ![]) (j : (⟨2, ![a, b]⟩ : Shape).Idx) :
    broadcastInDim ⟨2, ![a, b]⟩ ![] hz z j = z ix0 :=
  broadcastInDim_apply _ _ _ _ ix0 (fun d => d.elim0)

/-- The host's `max(X + row, 0)` at (p, q). -/
theorem hostBiasRelu_apply (X : FVec Ideal ⟨2, ![a, b]⟩ .f32) (B : FVec Ideal ⟨2, ![1, b]⟩ .f32)
    (hb : (⟨2, ![1, b]⟩ : Shape).BroadcastsInDim ⟨2, ![a, b]⟩ ![0, 1])
    (hz : (⟨0, ![]⟩ : Shape).BroadcastsInDim ⟨2, ![a, b]⟩ ![]) (p : Fin a) (q : Fin b) :
    maximumf (addf X (broadcastInDim ⟨2, ![a, b]⟩ ![0, 1] hb B))
        (broadcastInDim ⟨2, ![a, b]⟩ ![] hz (constant (F := Ideal) ⟨0, ![]⟩ .f32 0x00000000#32)) (ix2 p q)
      = max (X (ix2 p q) + B (ix2 (0 : Fin 1) q)) (Ideal.ofBits .f32 0x00000000#32) := by
  show max (X (ix2 p q) + broadcastInDim ⟨2, ![a, b]⟩ ![0, 1] hb B (ix2 p q))
      (broadcastInDim ⟨2, ![a, b]⟩ ![] hz (constant (F := Ideal) ⟨0, ![]⟩ .f32 0x00000000#32) (ix2 p q)) = _
  rw [rowInDim_apply, scalarInDim_apply]
  rfl

/-- A kernel body's `max(x + row, 0)` at (p, q): the row broadcast by `vector.broadcast`, the zero a scalar splat. -/
theorem bodyBiasRelu_apply (x : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    maximumf (addf x (broadcastTo ⟨2, ![a, b]⟩ r h))
        (broadcast ⟨2, ![a, b]⟩ (Scalar.ofBits (F := Ideal) .f32 0x00000000#32)) (ix2 p q)
      = max (x (ix2 p q) + r (ix2 (0 : Fin 1) q)) (Ideal.ofBits .f32 0x00000000#32) := by
  show max (x (ix2 p q) + broadcastTo ⟨2, ![a, b]⟩ r h (ix2 p q)) _ = _
  rw [rowTo_apply]
  rfl

/-- The host's `Y + row` at (p, q). -/
theorem hostBias_apply (Y : FVec Ideal ⟨2, ![a, b]⟩ .f32) (B : FVec Ideal ⟨2, ![1, b]⟩ .f32)
    (hb : (⟨2, ![1, b]⟩ : Shape).BroadcastsInDim ⟨2, ![a, b]⟩ ![0, 1]) (p : Fin a) (q : Fin b) :
    addf Y (broadcastInDim ⟨2, ![a, b]⟩ ![0, 1] hb B) (ix2 p q) = Y (ix2 p q) + B (ix2 (0 : Fin 1) q) := by
  show Y (ix2 p q) + broadcastInDim ⟨2, ![a, b]⟩ ![0, 1] hb B (ix2 p q) = _
  rw [rowInDim_apply]

/-- A kernel body's `y + row` at (p, q). -/
theorem bodyBias_apply (y : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    addf y (broadcastTo ⟨2, ![a, b]⟩ r h) (ix2 p q) = y (ix2 p q) + r (ix2 (0 : Fin 1) q) := by
  show y (ix2 p q) + broadcastTo ⟨2, ![a, b]⟩ r h (ix2 p q) = _
  rw [rowTo_apply]

end Cert.RowBias

end
-- ==== Proof.Region1.lean ====
/-
  Region 1 of the idealized kernel: a bias row added to every row, then the maximum with zero, one block of 5000 rows
  per grid point.

  At grid point t the body reads rows 5000·t … 5000·t + 4999 of the [50000, 64] array and the whole [1, 64] bias row,
  adds the row to each of the block's rows, takes the maximum with zero, and writes the block back to the same rows of
  the result.  The ten blocks tile the 50000 rows, so the result array ends holding

      result[r, q] = max(array[r, q] + bias[0, q], 0),

  which is also what the host computes by broadcasting the row over the whole array, adding, and taking the maximum
  with a broadcast zero.  Stated for any contents `V` of the core's buffers at the region's entry.
-/
import proofs.«117150_j46866683134564_1_alg».proof.Proof.Gen.KernelIdeal.Frame
import proofs.«117150_j46866683134564_1_alg».proof.Proof.LibRowBias
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row's index for result entry `i`: (0, column of i). -/
abbrev biasAt (i : S50000x64.Idx) : S1x64.Idx := ix2 (0 : Fin 1) (⟨(i 1).val, (i 1).isLt⟩ : Fin 64)

/-- The whole-array function: the bias row added to every row, then the maximum with zero. -/
def biasRelu (X : FVec Ideal S50000x64 .f32) (B : FVec Ideal S1x64 .f32) : FVec Ideal S50000x64 .f32 :=
  fun i => max (X i + B (biasAt i)) (Ideal.ofBits .f32 0x00000000#32)

/-- The host's spelling — the row broadcast over the array, added, the maximum with a broadcast zero — is that function. -/
theorem host_eq_biasRelu (X : FVec Ideal S50000x64 .f32) (B : FVec Ideal S1x64 .f32)
    (hb : S1x64.BroadcastsInDim S50000x64 ![0, 1]) (hz : S_.BroadcastsInDim S50000x64 ![]) :
    maximumf (addf X (broadcastInDim S50000x64 ![0, 1] hb B))
        (broadcastInDim S50000x64 ![] hz (constant (F := Ideal) S_ .f32 0x00000000#32)) = biasRelu X B := by
  funext i
  obtain ⟨p, q, rfl⟩ : ∃ (p : Fin 50000) (q : Fin 64), i = ix2 p q := ⟨i 0, i 1, eq_ix2 i⟩
  exact Cert.RowBias.hostBiasRelu_apply X B hb hz p q

/-- The body's stored value at an entry of the block. -/
theorem payload_apply (x0 : Vec Ideal S5000x64 .f32) (x1 : Vec Ideal S1x64 .f32) (j : S5000x64.Idx) :
    k1_pay1 (F := Ideal) x0 x1 j
      = max (x0 j + x1 (ix2 (0 : Fin 1) (⟨(j 1).val, (j 1).isLt⟩ : Fin 64))) (Ideal.ofBits .f32 0x00000000#32) := by
  obtain ⟨p, q, rfl⟩ : ∃ (p : Fin 5000) (q : Fin 64), j = ix2 p q := ⟨j 0, j 1, eq_ix2 j⟩
  unfold k1_pay1
  simp only [shapeCast_self]
  exact Cert.RowBias.bodyBiasRelu_apply x0 x1 broadcasts_S1x64_S5000x64 p q

/-- The windows' block indices over the grid: the array's and the result's windows move down one block of rows per
    point, the bias row's window stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the arrays as the region finds them. -/
theorem flushed_eq (c : Dev nD) (t : Fin cfg1.N) :
    (dat1 V c).flushed 2 t = ((cfg1.win 2).blk t).view.read (Elt Ideal) (biasRelu (V c main_v44) (V c main_v45)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e00, e01, e10, e11, e20, e21⟩ := index_facts t
  funext j
  show k1_pay1 (iblk1 V c 0 t) (iblk1 V c 1 t) j = biasRelu (V c main_v44) (V c main_v45) (((cfg1.win 2).blk t).view.emb j)
  refine (payload_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) (⟨(j 1).val, (j 1).isLt⟩ : Fin 64))
      = biasAt (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  exact congrArg₂ (fun u v => max (u + v) (Ideal.ofBits .f32 0x00000000#32))
    (show (V c main_v44 : FVec Ideal S50000x64 .f32) (((cfg1.win 0).blk t).view.emb j)
        = (V c main_v44 : FVec Ideal S50000x64 .f32) (((cfg1.win 2).blk t).view.emb j) from congrArg _ h0)
    (show (V c main_v45 : FVec Ideal S1x64 .f32) (((cfg1.win 1).blk t).view.emb (ix2 (0 : Fin 1) (⟨(j 1).val, (j 1).isLt⟩ : Fin 64)))
        = (V c main_v45 : FVec Ideal S1x64 .f32) (biasAt (((cfg1.win 2).blk t).view.emb j)) from congrArg _ h1)

/-- An index of the result is in point `t`'s block iff each coordinate is in the block's range on its axis. -/
theorem mem_block (t : Fin cfg1.N) (i : S50000x64.Idx) :
    i ∈ ((cfg1.win 2).blk t).view.set
      ↔ ∀ a : Fin 2, win1_2.index t a * S5000x64.size a ≤ (i a).val ∧ (i a).val < win1_2.index t a * S5000x64.size a + S5000x64.size a := by
  show i ∈ ((View.whole main_v46).slice (win1_2.rect t)).set ↔ _
  rw [View.set_slice_whole, Rect.mem_set_unit]
  exact Iff.rfl

/-- Row r of the result lies in the block of point r / 5000. -/
theorem covered (i : S50000x64.Idx) :
    ∃ t : Fin cfg1.N, (cfg1.win 2).flush t = true ∧ i ∈ ((cfg1.win 2).blk t).view.set := by
  have h0 : (i 0).val < 50000 := (i 0).isLt
  have h1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e00, e01, e10, e11, e20, e21⟩ := index_facts t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- The result array after the region: the whole-array function of the two arrays as the region finds them. -/
theorem array_eq (c : Dev nD) : (dat1 V c).arrAt 2 cfg1.N = biasRelu (V c main_v44) (V c main_v45) :=
  (dat1 V c).arrAt_eq_of_cover 2 (biasRelu (V c main_v44) (V c main_v45)) (fun t _ => flushed_eq V c t) covered

end Cert.KernelIdeal.Region1

end
-- ==== Proof.Region2.lean ====
/-
  Region 2 of the idealized kernel: a matrix product, one block of 5000 rows per grid point.

  At grid point t the body reads rows 5000·t … 5000·t + 4999 of the left array ([50000, 64]) and the whole right array
  ([64, 64]), multiplies them on the matrix unit into zeros (the change of float format before it is the identity over
  the extended reals), and writes the block back to the same rows of the result.  An entry of a block's product is the
  inner product of a row of the left array with a column of the right one, and the 10 blocks tile the 50000 rows, so
  the result array ends holding

      result[r, q] = Σ_{k < 64} left[r, k] · right[k, q],

  which is also what the host's `dot_general` of the two whole arrays holds.  Stated for any contents `V` of the
  core's buffers at the region's entry.
-/
import proofs.«117150_j46866683134564_1_alg».proof.Proof.Gen.KernelIdeal.Frame
import proofs.«117150_j46866683134564_1_alg».proof.Proof.LibMatmulNN
import proofs.«117150_j46866683134564_1_alg».proof.Proof.LibDotNN
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The left array's index for result entry `i` and contraction position `k`: (row of i, k). -/
abbrev leftAt (i : S50000x64.Idx) (k : Fin 64) : S50000x64.Idx := ix2 (⟨(i 0).val, (i 0).isLt⟩ : Fin 50000) k
/-- The right array's index for result entry `i` and contraction position `k`: (k, column of i). -/
abbrev rightAt (i : S50000x64.Idx) (k : Fin 64) : S64x64.Idx := ix2 k (⟨(i 1).val, (i 1).isLt⟩ : Fin 64)

/-- The product of the two whole arrays, entry by entry. -/
def product (X : FVec Ideal S50000x64 .f32) (W : FVec Ideal S64x64 .f32) : FVec Ideal S50000x64 .f32 :=
  fun i => ∑ k : Fin 64, X (leftAt i k) * W (rightAt i k)

/-- The host's `dot_general` of the whole arrays is that product. -/
theorem dotGeneral_eq_product (D : DotDims S50000x64 S64x64 S50000x64) (hD : D = DotDims.plain 50000 64 64)
    (X : FVec Ideal S50000x64 .f32) (W : FVec Ideal S64x64 .f32) :
    Host.dotGeneral D none X W = product X W := by
  funext i
  obtain ⟨p, q, rfl⟩ : ∃ (p : Fin 50000) (q : Fin 64), i = ix2 p q := ⟨i 0, i 1, eq_ix2 i⟩
  exact Cert.DotNN.dotGeneral_apply D hD none .single X W p q

/-- The body's stored value at an entry of the block: the inner product of the left block's row with the right
    block's column. -/
theorem payload_apply (x0 : Vec Ideal S5000x64 .f32) (x1 : Vec Ideal S64x64 .f32) (j : S5000x64.Idx) :
    k2_pay1 (F := Ideal) x0 x1 j
      = ∑ k : Fin 64, x0 (ix2 (⟨(j 0).val, (j 0).isLt⟩ : Fin 5000) k) * x1 (ix2 k (⟨(j 1).val, (j 1).isLt⟩ : Fin 64)) := by
  obtain ⟨p, q, rfl⟩ : ∃ (p : Fin 5000) (q : Fin 64), j = ix2 p q := ⟨j 0, j 1, eq_ix2 j⟩
  unfold k2_pay1
  simp only [shapeCast_self]
  exact Cert.MatmulNN.matmul_zero_apply dot_S5000x64_S64x64_S5000x64_1_0_0_1_n_n rfl none _ _ p q

/-- The windows' block indices over the grid: the left and the result windows move down one block of rows per
    point, the right window stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the arrays as the region finds them. -/
theorem flushed_eq (c : Dev nD) (t : Fin cfg2.N) :
    (dat2 V c).flushed 2 t = ((cfg2.win 2).blk t).view.read (Elt Ideal) (product (V c main_v46) (V c main_arg5)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  obtain ⟨e00, e01, e10, e11, e20, e21⟩ := index_facts t
  funext j
  show k2_pay1 (iblk2 V c 0 t) (iblk2 V c 1 t) j = product (V c main_v46) (V c main_arg5) (((cfg2.win 2).blk t).view.emb j)
  refine (payload_apply (iblk2 V c 0 t) (iblk2 V c 1 t) j).trans ?_
  refine Finset.sum_congr rfl fun k _ => ?_
  have h0 : ((cfg2.win 0).blk t).view.emb (ix2 (⟨(j 0).val, (j 0).isLt⟩ : Fin 5000) k)
      = leftAt (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (ix2 k (⟨(j 1).val, (j 1).isLt⟩ : Fin 64))
      = rightAt (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  exact congrArg₂ (· * ·)
    (show (V c main_v46 : FVec Ideal S50000x64 .f32) (((cfg2.win 0).blk t).view.emb (ix2 (⟨(j 0).val, (j 0).isLt⟩ : Fin 5000) k))
        = (V c main_v46 : FVec Ideal S50000x64 .f32) (leftAt (((cfg2.win 2).blk t).view.emb j) k) from congrArg _ h0)
    (show (V c main_arg5 : FVec Ideal S64x64 .f32) (((cfg2.win 1).blk t).view.emb (ix2 k (⟨(j 1).val, (j 1).isLt⟩ : Fin 64)))
        = (V c main_arg5 : FVec Ideal S64x64 .f32) (rightAt (((cfg2.win 2).blk t).view.emb j) k) from congrArg _ h1)

/-- An index of the result is in point `t`'s block iff each coordinate is in the block's range on its axis. -/
theorem mem_block (t : Fin cfg2.N) (i : S50000x64.Idx) :
    i ∈ ((cfg2.win 2).blk t).view.set
      ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- Row r of the result lies in the block of point r / 5000. -/
theorem covered (i : S50000x64.Idx) :
    ∃ t : Fin cfg2.N, (cfg2.win 2).flush t = true ∧ i ∈ ((cfg2.win 2).blk t).view.set := by
  have h0 : (i 0).val < 50000 := (i 0).isLt
  have h1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e00, e01, e10, e11, e20, e21⟩ := index_facts t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The result array after the region: the product of the two arrays as the region finds them. -/
theorem array_eq (c : Dev nD) : (dat2 V c).arrAt 2 cfg2.N = product (V c main_v46) (V c main_arg5) :=
  (dat2 V c).arrAt_eq_of_cover 2 (product (V c main_v46) (V c main_arg5)) (fun t _ => flushed_eq V c t) covered

end Cert.KernelIdeal.Region2

end
-- ==== Proof.Region3.lean ====
/-
  Region 3 of the idealized kernel: a bias row added to every row, then the maximum with zero, one block of 5000 rows
  per grid point.

  At grid point t the body reads rows 5000·t … 5000·t + 4999 of the [50000, 64] array and the whole [1, 64] bias row,
  adds the row to each of the block's rows, takes the maximum with zero, and writes the block back to the same rows of
  the result.  The ten blocks tile the 50000 rows, so the result array ends holding

      result[r, q] = max(array[r, q] + bias[0, q], 0),

  which is also what the host computes by broadcasting the row over the whole array, adding, and taking the maximum
  with a broadcast zero.  Stated for any contents `V` of the core's buffers at the region's entry.
-/
import proofs.«117150_j46866683134564_1_alg».proof.Proof.Gen.KernelIdeal.Frame
import proofs.«117150_j46866683134564_1_alg».proof.Proof.LibRowBias
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The bias row's index for result entry `i`: (0, column of i). -/
abbrev biasAt (i : S50000x64.Idx) : S1x64.Idx := ix2 (0 : Fin 1) (⟨(i 1).val, (i 1).isLt⟩ : Fin 64)

/-- The whole-array function: the bias row added to every row, then the maximum with zero. -/
def biasRelu (X : FVec Ideal S50000x64 .f32) (B : FVec Ideal S1x64 .f32) : FVec Ideal S50000x64 .f32 :=
  fun i => max (X i + B (biasAt i)) (Ideal.ofBits .f32 0x00000000#32)

/-- The host's spelling — the row broadcast over the array, added, the maximum with a broadcast zero — is that function. -/
theorem host_eq_biasRelu (X : FVec Ideal S50000x64 .f32) (B : FVec Ideal S1x64 .f32)
    (hb : S1x64.BroadcastsInDim S50000x64 ![0, 1]) (hz : S_.BroadcastsInDim S50000x64 ![]) :
    maximumf (addf X (broadcastInDim S50000x64 ![0, 1] hb B))
        (broadcastInDim S50000x64 ![] hz (constant (F := Ideal) S_ .f32 0x00000000#32)) = biasRelu X B := by
  funext i
  obtain ⟨p, q, rfl⟩ : ∃ (p : Fin 50000) (q : Fin 64), i = ix2 p q := ⟨i 0, i 1, eq_ix2 i⟩
  exact Cert.RowBias.hostBiasRelu_apply X B hb hz p q

/-- The body's stored value at an entry of the block. -/
theorem payload_apply (x0 : Vec Ideal S5000x64 .f32) (x1 : Vec Ideal S1x64 .f32) (j : S5000x64.Idx) :
    k3_pay1 (F := Ideal) x0 x1 j
      = max (x0 j + x1 (ix2 (0 : Fin 1) (⟨(j 1).val, (j 1).isLt⟩ : Fin 64))) (Ideal.ofBits .f32 0x00000000#32) := by
  obtain ⟨p, q, rfl⟩ : ∃ (p : Fin 5000) (q : Fin 64), j = ix2 p q := ⟨j 0, j 1, eq_ix2 j⟩
  unfold k3_pay1
  simp only [shapeCast_self]
  exact Cert.RowBias.bodyBiasRelu_apply x0 x1 broadcasts_S1x64_S5000x64 p q

/-- The windows' block indices over the grid: the array's and the result's windows move down one block of rows per
    point, the bias row's window stays. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function of the arrays as the region finds them. -/
theorem flushed_eq (c : Dev nD) (t : Fin cfg3.N) :
    (dat3 V c).flushed 2 t = ((cfg3.win 2).blk t).view.read (Elt Ideal) (biasRelu (V c main_v79) (V c main_v80)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e00, e01, e10, e11, e20, e21⟩ := index_facts t
  funext j
  show k3_pay1 (iblk3 V c 0 t) (iblk3 V c 1 t) j = biasRelu (V c main_v79) (V c main_v80) (((cfg3.win 2).blk t).view.emb j)
  refine (payload_apply (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (0 : Fin 1) (⟨(j 1).val, (j 1).isLt⟩ : Fin 64))
      = biasAt (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  exact congrArg₂ (fun u v => max (u + v) (Ideal.ofBits .f32 0x00000000#32))
    (show (V c main_v79 : FVec Ideal S50000x64 .f32) (((cfg3.win 0).blk t).view.emb j)
        = (V c main_v79 : FVec Ideal S50000x64 .f32) (((cfg3.win 2).blk t).view.emb j) from congrArg _ h0)
    (show (V c main_v80 : FVec Ideal S1x64 .f32) (((cfg3.win 1).blk t).view.emb (ix2 (0 : Fin 1) (⟨(j 1).val, (j 1).isLt⟩ : Fin 64)))
        = (V c main_v80 : FVec Ideal S1x64 .f32) (biasAt (((cfg3.win 2).blk t).view.emb j)) from congrArg _ h1)

/-- An index of the result is in point `t`'s block iff each coordinate is in the block's range on its axis. -/
theorem mem_block (t : Fin cfg3.N) (i : S50000x64.Idx) :
    i ∈ ((cfg3.win 2).blk t).view.set
      ↔ ∀ a : Fin 2, win3_2.index t a * S5000x64.size a ≤ (i a).val ∧ (i a).val < win3_2.index t a * S5000x64.size a + S5000x64.size a := by
  show i ∈ ((View.whole main_v81).slice (win3_2.rect t)).set ↔ _
  rw [View.set_slice_whole, Rect.mem_set_unit]
  exact Iff.rfl

/-- Row r of the result lies in the block of point r / 5000. -/
theorem covered (i : S50000x64.Idx) :
    ∃ t : Fin cfg3.N, (cfg3.win 2).flush t = true ∧ i ∈ ((cfg3.win 2).blk t).view.set := by
  have h0 : (i 0).val < 50000 := (i 0).isLt
  have h1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e00, e01, e10, e11, e20, e21⟩ := index_facts t
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- The result array after the region: the whole-array function of the two arrays as the region finds them. -/
theorem array_eq (c : Dev nD) : (dat3 V c).arrAt 2 cfg3.N = biasRelu (V c main_v79) (V c main_v80) :=
  (dat3 V c).arrAt_eq_of_cover 2 (biasRelu (V c main_v79) (V c main_v80)) (fun t _ => flushed_eq V c t) covered

end Cert.KernelIdeal.Region3

end
-- ==== Proof.Region4.lean ====
/-
  Region 4 of the idealized kernel: the two output projections, in one grid point.

  The body reads the whole pooled array ([512, 64]), two weight arrays ([64, 32]) and two bias rows ([1, 32]); for each
  weight it multiplies pooled by it on the matrix unit into zeros (the change of float format before it is the identity
  over the extended reals), adds the bias row to every row, and stores the [512, 32] result whole.  An entry of the
  product is an inner product, so each result array ends holding

      result[g, z] = Σ_{k < 64} pooled[g, k] · weight[k, z] + bias[0, z],

  which is also what the host computes by a `dot_general` of the whole arrays plus the broadcast row.  Stated for any
  contents `V` of the core's buffers at the region's entry.
-/
import proofs.«117150_j46866683134564_1_alg».proof.Proof.Gen.KernelIdeal.Frame
import proofs.«117150_j46866683134564_1_alg».proof.Proof.LibMatmulNN
import proofs.«117150_j46866683134564_1_alg».proof.Proof.LibDotNN
import proofs.«117150_j46866683134564_1_alg».proof.Proof.LibRowBias
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The pooled array's index for result entry `i` and contraction position `k`: (row of i, k). -/
abbrev leftAt (i : S512x32.Idx) (k : Fin 64) : S512x64.Idx := ix2 (⟨(i 0).val, (i 0).isLt⟩ : Fin 512) k
/-- The weight array's index for result entry `i` and contraction position `k`: (k, column of i). -/
abbrev rightAt (i : S512x32.Idx) (k : Fin 64) : S64x32.Idx := ix2 k (⟨(i 1).val, (i 1).isLt⟩ : Fin 32)
/-- The bias row's index for result entry `i`: (0, column of i). -/
abbrev biasAt (i : S512x32.Idx) : S1x32.Idx := ix2 (0 : Fin 1) (⟨(i 1).val, (i 1).isLt⟩ : Fin 32)

/-- The whole-array function: the product of pooled with a weight array, plus the bias row on every row. -/
def projection (P : FVec Ideal S512x64 .f32) (W : FVec Ideal S64x32 .f32) (B : FVec Ideal S1x32 .f32) : FVec Ideal S512x32 .f32 :=
  fun i => (∑ k : Fin 64, P (leftAt i k) * W (rightAt i k)) + B (biasAt i)

/-- The host's spelling — a `dot_general` of the whole arrays plus the row broadcast over the result — is that function. -/
theorem host_eq_projection (D : DotDims S512x64 S64x32 S512x32) (hD : D = DotDims.plain 512 64 32)
    (hb : S1x32.BroadcastsInDim S512x32 ![0, 1])
    (P : FVec Ideal S512x64 .f32) (W : FVec Ideal S64x32 .f32) (B : FVec Ideal S1x32 .f32) :
    addf (Host.dotGeneral D none P W) (broadcastInDim S512x32 ![0, 1] hb B) = projection P W B := by
  funext i
  obtain ⟨p, q, rfl⟩ : ∃ (p : Fin 512) (q : Fin 32), i = ix2 p q := ⟨i 0, i 1, eq_ix2 i⟩
  exact (Cert.RowBias.hostBias_apply _ B hb p q).trans
    (congrArg (· + B (ix2 (0 : Fin 1) q)) (Cert.DotNN.dotGeneral_apply D hD none .single P W p q))

/-- Every window's one block sits at the origin of its array. -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-! ## The first result: pooled · the first weight array + the first bias row -/

/-- The body's value stored to the first result, at an entry: the inner product plus the bias row's entry. -/
theorem payload5_apply (x0 : Vec Ideal S512x64 .f32) (x1 : Vec Ideal S64x32 .f32) (x2 : Vec Ideal S1x32 .f32) (j : S512x32.Idx) :
    k4_pay2 (F := Ideal) x0 x1 x2 j
      = (∑ k : Fin 64, x0 (ix2 (⟨(j 0).val, (j 0).isLt⟩ : Fin 512) k) * x1 (ix2 k (⟨(j 1).val, (j 1).isLt⟩ : Fin 32)))
        + x2 (ix2 (0 : Fin 1) (⟨(j 1).val, (j 1).isLt⟩ : Fin 32)) := by
  obtain ⟨p, q, rfl⟩ : ∃ (p : Fin 512) (q : Fin 32), j = ix2 p q := ⟨j 0, j 1, eq_ix2 j⟩
  unfold k4_pay2 k4_pay1
  simp only [shapeCast_self]
  exact (Cert.RowBias.bodyBias_apply _ x2 broadcasts_S1x32_S512x32 p q).trans
    (congrArg (· + x2 (ix2 (0 : Fin 1) q))
      (Cert.MatmulNN.matmul_zero_apply dot_S512x64_S64x32_S512x32_1_0_0_1_n_n rfl none _ _ p q))

/-- What the one point writes back to the first result is the whole-array function of the arrays as the region
    finds them (the one block is the whole array). -/
theorem flushed5_eq (c : Dev nD) (t : Fin cfg4.N) :
    (dat4 V c).flushed 5 t
      = ((cfg4.win 5).blk t).view.read (Elt Ideal) (projection (V c main_v93) (V c main_arg7) (V c main_v94)) := by
  show (cfg4.win 5).cut (grid4.coords t) ((dat4 V c).after 5 t) = _
  rw [after4_5]
  unfold out4_5
  rw [View.canon_unit_zero zero_offsets]
  simp only [View.ld_unit_zero (S := S512x64) zero_offsets, View.ld_unit_zero (S := S64x32) zero_offsets,
    View.ld_unit_zero (S := S1x32) zero_offsets]
  obtain ⟨e00, e01, e10, e11, e20, e21, e30, e31, e40, e41, e50, e51, e60, e61⟩ := index_facts t
  funext j
  show k4_pay2 (iblk4 V c 0 t) (iblk4 V c 1 t) (iblk4 V c 2 t) j
    = projection (V c main_v93) (V c main_arg7) (V c main_v94) (((cfg4.win 5).blk t).view.emb j)
  refine (payload5_apply (iblk4 V c 0 t) (iblk4 V c 1 t) (iblk4 V c 2 t) j).trans ?_
  have h0 : ∀ k : Fin 64, ((cfg4.win 0).blk t).view.emb (ix2 (⟨(j 0).val, (j 0).isLt⟩ : Fin 512) k)
      = leftAt (((cfg4.win 5).blk t).view.emb j) k := fun k => by
    funext a; apply Fin.ext
    match a with
    | ⟨0, _⟩ => show win4_0.index t (0 : Fin 2) * 512 + 1 * (j 0).val = win4_5.index t (0 : Fin 2) * 512 + 1 * (j 0).val; omega
    | ⟨1, _⟩ => show win4_0.index t (1 : Fin 2) * 64 + 1 * k.val = k.val; omega
  have h1 : ∀ k : Fin 64, ((cfg4.win 1).blk t).view.emb (ix2 k (⟨(j 1).val, (j 1).isLt⟩ : Fin 32))
      = rightAt (((cfg4.win 5).blk t).view.emb j) k := fun k => by
    funext a; apply Fin.ext
    match a with
    | ⟨0, _⟩ => show win4_1.index t (0 : Fin 2) * 64 + 1 * k.val = k.val; omega
    | ⟨1, _⟩ => show win4_1.index t (1 : Fin 2) * 32 + 1 * (j 1).val = win4_5.index t (1 : Fin 2) * 32 + 1 * (j 1).val; omega
  have h2 : ((cfg4.win 2).blk t).view.emb (ix2 (0 : Fin 1) (⟨(j 1).val, (j 1).isLt⟩ : Fin 32))
      = biasAt (((cfg4.win 5).blk t).view.emb j) := by
    funext a; apply Fin.ext
    match a with
    | ⟨0, _⟩ => show win4_2.index t (0 : Fin 2) * 1 + 1 * 0 = 0; omega
    | ⟨1, _⟩ => show win4_2.index t (1 : Fin 2) * 32 + 1 * (j 1).val = win4_5.index t (1 : Fin 2) * 32 + 1 * (j 1).val; omega
  exact congrArg₂ (· + ·)
    (Finset.sum_congr rfl fun k _ => congrArg₂ (· * ·)
      (show (V c main_v93 : FVec Ideal S512x64 .f32) (((cfg4.win 0).blk t).view.emb (ix2 (⟨(j 0).val, (j 0).isLt⟩ : Fin 512) k))
          = (V c main_v93 : FVec Ideal S512x64 .f32) (leftAt (((cfg4.win 5).blk t).view.emb j) k) from congrArg _ (h0 k))
      (show (V c main_arg7 : FVec Ideal S64x32 .f32) (((cfg4.win 1).blk t).view.emb (ix2 k (⟨(j 1).val, (j 1).isLt⟩ : Fin 32)))
          = (V c main_arg7 : FVec Ideal S64x32 .f32) (rightAt (((cfg4.win 5).blk t).view.emb j) k) from congrArg _ (h1 k)))
    (show (V c main_v94 : FVec Ideal S1x32 .f32) (((cfg4.win 2).blk t).view.emb (ix2 (0 : Fin 1) (⟨(j 1).val, (j 1).isLt⟩ : Fin 32)))
        = (V c main_v94 : FVec Ideal S1x32 .f32) (biasAt (((cfg4.win 5).blk t).view.emb j)) from congrArg _ h2)

/-- An index of the first result is in the point's block iff each coordinate is in the block's range on its axis. -/
theorem mem_block5 (t : Fin cfg4.N) (i : S512x32.Idx) :
    i ∈ ((cfg4.win 5).blk t).view.set
      ↔ ∀ a : Fin 2, win4_5.index t a * S512x32.size a ≤ (i a).val ∧ (i a).val < win4_5.index t a * S512x32.size a + S512x32.size a := by
  show i ∈ ((View.whole main_v96_0).slice (win4_5.rect t)).set ↔ _
  rw [View.set_slice_whole, Rect.mem_set_unit]
  exact Iff.rfl

/-- The one block covers the first result. -/
theorem covered5 (i : S512x32.Idx) :
    ∃ t : Fin cfg4.N, (cfg4.win 5).flush t = true ∧ i ∈ ((cfg4.win 5).blk t).view.set := by
  have h0 : (i 0).val < 512 := (i 0).isLt
  have h1 : (i 1).val < 32 := (i 1).isLt
  obtain ⟨e00, e01, e10, e11, e20, e21, e30, e31, e40, e41, e50, e51, e60, e61⟩ := index_facts t4_0
  refine ⟨t4_0, flush4_5 t4_0, ?_⟩
  rw [mem_block5]
  intro a
  match a with
  | ⟨0, _⟩ =>
    show win4_5.index t4_0 (0 : Fin 2) * 512 ≤ (i 0).val ∧ (i 0).val < win4_5.index t4_0 (0 : Fin 2) * 512 + 512
    omega
  | ⟨1, _⟩ =>
    show win4_5.index t4_0 (1 : Fin 2) * 32 ≤ (i 1).val ∧ (i 1).val < win4_5.index t4_0 (1 : Fin 2) * 32 + 32
    omega

/-- The first result array after the region. -/
theorem array5_eq (c : Dev nD) :
    (dat4 V c).arrAt 5 cfg4.N = projection (V c main_v93) (V c main_arg7) (V c main_v94) :=
  (dat4 V c).arrAt_eq_of_cover 5 (projection (V c main_v93) (V c main_arg7) (V c main_v94)) (fun t _ => flushed5_eq V c t) covered5

/-! ## The second result: pooled · the second weight array + the second bias row -/

/-- The body's value stored to the second result, at an entry: the inner product plus the bias row's entry. -/
theorem payload6_apply (x0 : Vec Ideal S512x64 .f32) (x1 : Vec Ideal S64x32 .f32) (x2 : Vec Ideal S1x32 .f32) (j : S512x32.Idx) :
    k4_pay3 (F := Ideal) x0 x1 x2 j
      = (∑ k : Fin 64, x0 (ix2 (⟨(j 0).val, (j 0).isLt⟩ : Fin 512) k) * x1 (ix2 k (⟨(j 1).val, (j 1).isLt⟩ : Fin 32)))
        + x2 (ix2 (0 : Fin 1) (⟨(j 1).val, (j 1).isLt⟩ : Fin 32)) := by
  obtain ⟨p, q, rfl⟩ : ∃ (p : Fin 512) (q : Fin 32), j = ix2 p q := ⟨j 0, j 1, eq_ix2 j⟩
  unfold k4_pay3 k4_pay1
  simp only [shapeCast_self]
  exact (Cert.RowBias.bodyBias_apply _ x2 broadcasts_S1x32_S512x32 p q).trans
    (congrArg (· + x2 (ix2 (0 : Fin 1) q))
      (Cert.MatmulNN.matmul_zero_apply dot_S512x64_S64x32_S512x32_1_0_0_1_n_n rfl none _ _ p q))

/-- What the one point writes back to the second result is the whole-array function of the arrays as the region
    finds them (the one block is the whole array). -/
theorem flushed6_eq (c : Dev nD) (t : Fin cfg4.N) :
    (dat4 V c).flushed 6 t
      = ((cfg4.win 6).blk t).view.read (Elt Ideal) (projection (V c main_v93) (V c main_arg9) (V c main_v95)) := by
  show (cfg4.win 6).cut (grid4.coords t) ((dat4 V c).after 6 t) = _
  rw [after4_6]
  unfold out4_6
  rw [View.canon_unit_zero zero_offsets]
  simp only [View.ld_unit_zero (S := S512x64) zero_offsets, View.ld_unit_zero (S := S64x32) zero_offsets,
    View.ld_unit_zero (S := S1x32) zero_offsets]
  obtain ⟨e00, e01, e10, e11, e20, e21, e30, e31, e40, e41, e50, e51, e60, e61⟩ := index_facts t
  funext j
  show k4_pay3 (iblk4 V c 0 t) (iblk4 V c 3 t) (iblk4 V c 4 t) j
    = projection (V c main_v93) (V c main_arg9) (V c main_v95) (((cfg4.win 6).blk t).view.emb j)
  refine (payload6_apply (iblk4 V c 0 t) (iblk4 V c 3 t) (iblk4 V c 4 t) j).trans ?_
  have h0 : ∀ k : Fin 64, ((cfg4.win 0).blk t).view.emb (ix2 (⟨(j 0).val, (j 0).isLt⟩ : Fin 512) k)
      = leftAt (((cfg4.win 6).blk t).view.emb j) k := fun k => by
    funext a; apply Fin.ext
    match a with
    | ⟨0, _⟩ => show win4_0.index t (0 : Fin 2) * 512 + 1 * (j 0).val = win4_6.index t (0 : Fin 2) * 512 + 1 * (j 0).val; omega
    | ⟨1, _⟩ => show win4_0.index t (1 : Fin 2) * 64 + 1 * k.val = k.val; omega
  have h1 : ∀ k : Fin 64, ((cfg4.win 3).blk t).view.emb (ix2 k (⟨(j 1).val, (j 1).isLt⟩ : Fin 32))
      = rightAt (((cfg4.win 6).blk t).view.emb j) k := fun k => by
    funext a; apply Fin.ext
    match a with
    | ⟨0, _⟩ => show win4_3.index t (0 : Fin 2) * 64 + 1 * k.val = k.val; omega
    | ⟨1, _⟩ => show win4_3.index t (1 : Fin 2) * 32 + 1 * (j 1).val = win4_6.index t (1 : Fin 2) * 32 + 1 * (j 1).val; omega
  have h2 : ((cfg4.win 4).blk t).view.emb (ix2 (0 : Fin 1) (⟨(j 1).val, (j 1).isLt⟩ : Fin 32))
      = biasAt (((cfg4.win 6).blk t).view.emb j) := by
    funext a; apply Fin.ext
    match a with
    | ⟨0, _⟩ => show win4_4.index t (0 : Fin 2) * 1 + 1 * 0 = 0; omega
    | ⟨1, _⟩ => show win4_4.index t (1 : Fin 2) * 32 + 1 * (j 1).val = win4_6.index t (1 : Fin 2) * 32 + 1 * (j 1).val; omega
  exact congrArg₂ (· + ·)
    (Finset.sum_congr rfl fun k _ => congrArg₂ (· * ·)
      (show (V c main_v93 : FVec Ideal S512x64 .f32) (((cfg4.win 0).blk t).view.emb (ix2 (⟨(j 0).val, (j 0).isLt⟩ : Fin 512) k))
          = (V c main_v93 : FVec Ideal S512x64 .f32) (leftAt (((cfg4.win 6).blk t).view.emb j) k) from congrArg _ (h0 k))
      (show (V c main_arg9 : FVec Ideal S64x32 .f32) (((cfg4.win 3).blk t).view.emb (ix2 k (⟨(j 1).val, (j 1).isLt⟩ : Fin 32)))
          = (V c main_arg9 : FVec Ideal S64x32 .f32) (rightAt (((cfg4.win 6).blk t).view.emb j) k) from congrArg _ (h1 k)))
    (show (V c main_v95 : FVec Ideal S1x32 .f32) (((cfg4.win 4).blk t).view.emb (ix2 (0 : Fin 1) (⟨(j 1).val, (j 1).isLt⟩ : Fin 32)))
        = (V c main_v95 : FVec Ideal S1x32 .f32) (biasAt (((cfg4.win 6).blk t).view.emb j)) from congrArg _ h2)

/-- An index of the second result is in the point's block iff each coordinate is in the block's range on its axis. -/
theorem mem_block6 (t : Fin cfg4.N) (i : S512x32.Idx) :
    i ∈ ((cfg4.win 6).blk t).view.set
      ↔ ∀ a : Fin 2, win4_6.index t a * S512x32.size a ≤ (i a).val ∧ (i a).val < win4_6.index t a * S512x32.size a + S512x32.size a := by
  show i ∈ ((View.whole main_v96_1).slice (win4_6.rect t)).set ↔ _
  rw [View.set_slice_whole, Rect.mem_set_unit]
  exact Iff.rfl

/-- The one block covers the second result. -/
theorem covered6 (i : S512x32.Idx) :
    ∃ t : Fin cfg4.N, (cfg4.win 6).flush t = true ∧ i ∈ ((cfg4.win 6).blk t).view.set := by
  have h0 : (i 0).val < 512 := (i 0).isLt
  have h1 : (i 1).val < 32 := (i 1).isLt
  obtain ⟨e00, e01, e10, e11, e20, e21, e30, e31, e40, e41, e50, e51, e60, e61⟩ := index_facts t4_0
  refine ⟨t4_0, flush4_6 t4_0, ?_⟩
  rw [mem_block6]
  intro a
  match a with
  | ⟨0, _⟩ =>
    show win4_6.index t4_0 (0 : Fin 2) * 512 ≤ (i 0).val ∧ (i 0).val < win4_6.index t4_0 (0 : Fin 2) * 512 + 512
    omega
  | ⟨1, _⟩ =>
    show win4_6.index t4_0 (1 : Fin 2) * 32 ≤ (i 1).val ∧ (i 1).val < win4_6.index t4_0 (1 : Fin 2) * 32 + 32
    omega

/-- The second result array after the region. -/
theorem array6_eq (c : Dev nD) :
    (dat4 V c).arrAt 6 cfg4.N = projection (V c main_v93) (V c main_arg9) (V c main_v95) :=
  (dat4 V c).arrAt_eq_of_cover 6 (projection (V c main_v93) (V c main_arg9) (V c main_v95)) (fun t _ => flushed6_eq V c t) covered6

end Cert.KernelIdeal.Region4

end
-- ==== Proof.LibLayout.lean ====
import Idealize.ShloMosaic.Lib.Pipeline.Value
import Idealize.ShloMosaic.Lib.ValueIdx

/-!
  Two layout facts. A vector of n entries reshaped to a [1, n] row is the vector broadcast along a new leading axis, and
  reshaped to an [n, 1] column it is the vector broadcast along a new trailing axis: in both cases entry (·, j) or (i, ·)
  of the result is entry j or i of the vector, because the row-major position of an index does not see a unit axis.
-/

noncomputable section

namespace Cert.Layout

open Idealize.ShloMosaic Idealize.ShloMosaic.ValueIdx

variable {α : Type} {n : Nat}

/-- A reshape of [n] to [1, n] is the broadcast that puts the vector's axis second. -/
theorem row_reshape_eq_broadcast (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have h0 : (j 0).val = 0 := by have := (j 0).isLt; simp at this; omega
  have hr : shapeCast ⟨2, ![1, n]⟩ v h j = v (ix1 (⟨(j 1).val, (j 1).isLt⟩ : Fin n)) :=
    shapeCast_apply v h j (ix1 (⟨(j 1).val, (j 1).isLt⟩ : Fin n)) (by
      rw [Shape.rowMajor_val_one, Shape.rowMajor_val_two, h0]; simp; rfl)
  rw [hr]
  symm
  refine broadcastInDim_apply _ _ _ _ (ix1 (⟨(j 1).val, (j 1).isLt⟩ : Fin n)) (fun a => ?_)
  have ha : a = 0 := Subsingleton.elim _ _
  subst ha
  show (j 1).val = if n = 1 then 0 else (j 1).val
  split_ifs with h1
  · have := (j 1).isLt; simp at this; omega
  · rfl

/-- A reshape of [n] to [n, 1] is the broadcast that puts the vector's axis first. -/
theorem column_reshape_eq_broadcast (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have h1 : (j 1).val = 0 := by have := (j 1).isLt; simp at this; omega
  have hr : shapeCast ⟨2, ![n, 1]⟩ v h j = v (ix1 (⟨(j 0).val, (j 0).isLt⟩ : Fin n)) :=
    shapeCast_apply v h j (ix1 (⟨(j 0).val, (j 0).isLt⟩ : Fin n)) (by
      rw [Shape.rowMajor_val_one, Shape.rowMajor_val_two, h1]; simp; rfl)
  rw [hr]
  symm
  refine broadcastInDim_apply _ _ _ _ (ix1 (⟨(j 0).val, (j 0).isLt⟩ : Fin n)) (fun a => ?_)
  have ha : a = 0 := Subsingleton.elim _ _
  subst ha
  show (j 0).val = if n = 1 then 0 else (j 0).val
  split_ifs with hn
  · have := (j 0).isLt; simp at this; omega
  · rfl

end Cert.Layout

end
-- ==== Proof.Stages.lean ====
/-
  The idealized kernel's buffers along the run, as the reference's stages.

  Between the regions the kernel's host operations are the reference's own, in the same order: the two index rows of
  the edge list, the degree (a scatter-add of ones plus one), its inverse square root and that squared, the two gathers
  of it per edge and their product, the gather of the transformed rows, the scatter-add of the weighted messages, the
  self term, the pooling sums and counts and their quotient.  Where the reference multiplies two whole arrays the kernel
  runs a region that multiplies them block by block; where the reference adds a bias row and takes the maximum with zero
  the kernel runs a region that does so block by block; and the kernel reshapes a bias vector to a row where the
  reference broadcasts it to one, which is the same row.  So, boundary by boundary of the run, each buffer the kernel
  goes on to read holds the reference's stage of the same name, as a function of the argument arrays.
-/
import proofs.«117150_j46866683134564_1_alg».proof.Proof.Gen.KernelIdeal.Frame
import proofs.«117150_j46866683134564_1_alg».proof.Proof.Gen.ReferenceIdeal.Read
import proofs.«117150_j46866683134564_1_alg».proof.Proof.Region0
import proofs.«117150_j46866683134564_1_alg».proof.Proof.Region1
import proofs.«117150_j46866683134564_1_alg».proof.Proof.Region2
import proofs.«117150_j46866683134564_1_alg».proof.Proof.Region3
import proofs.«117150_j46866683134564_1_alg».proof.Proof.Region4
import proofs.«117150_j46866683134564_1_alg».proof.Proof.LibLayout
import Idealize.ShloMosaic.Lib.StableHlo.Run

set_option maxRecDepth 16384
set_option maxHeartbeats 4000000

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays at launch -/

abbrev a0 : FVec Ideal S50000x128 .f32 := m ((c : Thread nD τ).loc main_arg0)
abbrev a1 : (⟨S2x800000, .i32⟩ : BufTy).Contents (Elt Ideal) := m ((c : Thread nD τ).loc main_arg1)
abbrev a2 : (⟨S50000, .i32⟩ : BufTy).Contents (Elt Ideal) := m ((c : Thread nD τ).loc main_arg2)
abbrev a3 : FVec Ideal S128x64 .f32 := m ((c : Thread nD τ).loc main_arg3)
abbrev a4 : FVec Ideal S64 .f32 := m ((c : Thread nD τ).loc main_arg4)
abbrev a5 : FVec Ideal S64x64 .f32 := m ((c : Thread nD τ).loc main_arg5)
abbrev a6 : FVec Ideal S64 .f32 := m ((c : Thread nD τ).loc main_arg6)
abbrev a7 : FVec Ideal S64x32 .f32 := m ((c : Thread nD τ).loc main_arg7)
abbrev a8 : FVec Ideal S32 .f32 := m ((c : Thread nD τ).loc main_arg8)
abbrev a9 : FVec Ideal S64x32 .f32 := m ((c : Thread nD τ).loc main_arg9)
abbrev a10 : FVec Ideal S32 .f32 := m ((c : Thread nD τ).loc main_arg10)

/-- Equal arguments give equal values, for a function of three arrays. -/
theorem congr3 {α β γ δ : Type} (f : α → β → γ → δ) {x x' : α} {y y' : β} {z z' : γ}
    (hx : x = x') (hy : y = y') (hz : z = z') : f x y z = f x' y' z' := by subst hx hy hz; rfl

/-! ## After the first stretch of host operations: the index rows, the inverse square root of the degree, its square -/

theorem W1_v1 : (W1 m ρ c (Proc.devRef .tc main_v1) : (⟨S800000, .i32⟩ : BufTy).Contents (Elt Ideal)) = val_main_v1 (F := Ideal) (a1 m c) := by
  show StableHlo.after hostOps0 (W0 m ρ c) (Proc.devRef .tc main_v1) = _
  after_results_simp <;> rfl
theorem W1_v3 : (W1 m ρ c (Proc.devRef .tc main_v3) : (⟨S800000, .i32⟩ : BufTy).Contents (Elt Ideal)) = val_main_v3 (F := Ideal) (a1 m c) := by
  show StableHlo.after hostOps0 (W0 m ρ c) (Proc.devRef .tc main_v3) = _
  after_results_simp <;> rfl
theorem W1_v10 : (W1 m ρ c (Proc.devRef .tc main_v10) : FVec Ideal S50000 .f32) = val_main_v10 (F := Ideal) (a1 m c) := by
  show StableHlo.after hostOps0 (W0 m ρ c) (Proc.devRef .tc main_v10) = _
  after_results_simp <;> rfl
theorem W1_v11 : (W1 m ρ c (Proc.devRef .tc main_v11) : FVec Ideal S50000 .f32) = val_main_v40 (F := Ideal) (a1 m c) := by
  show StableHlo.after hostOps0 (W0 m ρ c) (Proc.devRef .tc main_v11) = _
  after_results_simp <;> rfl
theorem W1_a0 : (W1 m ρ c (Proc.devRef .tc main_arg0) : FVec Ideal S50000x128 .f32) = a0 m c := by
  show StableHlo.after hostOps0 (W0 m ρ c) (Proc.devRef .tc main_arg0) = _
  after_results_simp <;> rfl
theorem W1_a3 : (W1 m ρ c (Proc.devRef .tc main_arg3) : FVec Ideal S128x64 .f32) = a3 m c := by
  show StableHlo.after hostOps0 (W0 m ρ c) (Proc.devRef .tc main_arg3) = _
  after_results_simp <;> rfl
theorem W1_a4 : (W1 m ρ c (Proc.devRef .tc main_arg4) : FVec Ideal S64 .f32) = a4 m c := by
  show StableHlo.after hostOps0 (W0 m ρ c) (Proc.devRef .tc main_arg4) = _
  after_results_simp <;> rfl
theorem W1_a5 : (W1 m ρ c (Proc.devRef .tc main_arg5) : FVec Ideal S64x64 .f32) = a5 m c := by
  show StableHlo.after hostOps0 (W0 m ρ c) (Proc.devRef .tc main_arg5) = _
  after_results_simp <;> rfl
theorem W1_a2 : (W1 m ρ c (Proc.devRef .tc main_arg2) : (⟨S50000, .i32⟩ : BufTy).Contents (Elt Ideal)) = a2 m c := by
  show StableHlo.after hostOps0 (W0 m ρ c) (Proc.devRef .tc main_arg2) = _
  after_results_simp <;> rfl
theorem W2_a2 : (W2 m ρ c (Proc.devRef .tc main_arg2) : (⟨S50000, .i32⟩ : BufTy).Contents (Elt Ideal)) = a2 m c :=
  (W2_of_ne m ρ c main_arg2 (by decide)).trans (W1_a2 m ρ c)
theorem W3_a2 : (W3 m ρ c (Proc.devRef .tc main_arg2) : (⟨S50000, .i32⟩ : BufTy).Contents (Elt Ideal)) = a2 m c := by
  show StableHlo.after hostOps1 (W2 m ρ c) (Proc.devRef .tc main_arg2) = _
  after_results_simp
  exact W2_a2 m ρ c
theorem W4_a2 : (W4 m ρ c (Proc.devRef .tc main_arg2) : (⟨S50000, .i32⟩ : BufTy).Contents (Elt Ideal)) = a2 m c :=
  (W4_of_ne m ρ c main_arg2 (by decide)).trans (W3_a2 m ρ c)
theorem W5_a2 : (W5 m ρ c (Proc.devRef .tc main_arg2) : (⟨S50000, .i32⟩ : BufTy).Contents (Elt Ideal)) = a2 m c :=
  (W5_of_ne m ρ c main_arg2 (by decide)).trans (W4_a2 m ρ c)
theorem W6_a2 : (W6 m ρ c (Proc.devRef .tc main_arg2) : (⟨S50000, .i32⟩ : BufTy).Contents (Elt Ideal)) = a2 m c := by
  show StableHlo.after hostOps3 (W5 m ρ c) (Proc.devRef .tc main_arg2) = _
  after_results_simp
  exact W5_a2 m ρ c
theorem W7_a2 : (W7 m ρ c (Proc.devRef .tc main_arg2) : (⟨S50000, .i32⟩ : BufTy).Contents (Elt Ideal)) = a2 m c :=
  (W7_of_ne m ρ c main_arg2 (by decide)).trans (W6_a2 m ρ c)
theorem W1_a6 : (W1 m ρ c (Proc.devRef .tc main_arg6) : FVec Ideal S64 .f32) = a6 m c := by
  show StableHlo.after hostOps0 (W0 m ρ c) (Proc.devRef .tc main_arg6) = _
  after_results_simp <;> rfl
theorem W2_a6 : (W2 m ρ c (Proc.devRef .tc main_arg6) : FVec Ideal S64 .f32) = a6 m c :=
  (W2_of_ne m ρ c main_arg6 (by decide)).trans (W1_a6 m ρ c)
theorem W3_a6 : (W3 m ρ c (Proc.devRef .tc main_arg6) : FVec Ideal S64 .f32) = a6 m c := by
  show StableHlo.after hostOps1 (W2 m ρ c) (Proc.devRef .tc main_arg6) = _
  after_results_simp
  exact W2_a6 m ρ c
theorem W4_a6 : (W4 m ρ c (Proc.devRef .tc main_arg6) : FVec Ideal S64 .f32) = a6 m c :=
  (W4_of_ne m ρ c main_arg6 (by decide)).trans (W3_a6 m ρ c)
theorem W5_a6 : (W5 m ρ c (Proc.devRef .tc main_arg6) : FVec Ideal S64 .f32) = a6 m c :=
  (W5_of_ne m ρ c main_arg6 (by decide)).trans (W4_a6 m ρ c)
theorem W1_a7 : (W1 m ρ c (Proc.devRef .tc main_arg7) : FVec Ideal S64x32 .f32) = a7 m c := by
  show StableHlo.after hostOps0 (W0 m ρ c) (Proc.devRef .tc main_arg7) = _
  after_results_simp <;> rfl
theorem W2_a7 : (W2 m ρ c (Proc.devRef .tc main_arg7) : FVec Ideal S64x32 .f32) = a7 m c :=
  (W2_of_ne m ρ c main_arg7 (by decide)).trans (W1_a7 m ρ c)
theorem W3_a7 : (W3 m ρ c (Proc.devRef .tc main_arg7) : FVec Ideal S64x32 .f32) = a7 m c := by
  show StableHlo.after hostOps1 (W2 m ρ c) (Proc.devRef .tc main_arg7) = _
  after_results_simp
  exact W2_a7 m ρ c
theorem W4_a7 : (W4 m ρ c (Proc.devRef .tc main_arg7) : FVec Ideal S64x32 .f32) = a7 m c :=
  (W4_of_ne m ρ c main_arg7 (by decide)).trans (W3_a7 m ρ c)
theorem W5_a7 : (W5 m ρ c (Proc.devRef .tc main_arg7) : FVec Ideal S64x32 .f32) = a7 m c :=
  (W5_of_ne m ρ c main_arg7 (by decide)).trans (W4_a7 m ρ c)
theorem W6_a7 : (W6 m ρ c (Proc.devRef .tc main_arg7) : FVec Ideal S64x32 .f32) = a7 m c := by
  show StableHlo.after hostOps3 (W5 m ρ c) (Proc.devRef .tc main_arg7) = _
  after_results_simp
  exact W5_a7 m ρ c
theorem W7_a7 : (W7 m ρ c (Proc.devRef .tc main_arg7) : FVec Ideal S64x32 .f32) = a7 m c :=
  (W7_of_ne m ρ c main_arg7 (by decide)).trans (W6_a7 m ρ c)
theorem W8_a7 : (W8 m ρ c (Proc.devRef .tc main_arg7) : FVec Ideal S64x32 .f32) = a7 m c := by
  show StableHlo.after hostOps4 (W7 m ρ c) (Proc.devRef .tc main_arg7) = _
  after_results_simp
  exact W7_a7 m ρ c
theorem W1_a8 : (W1 m ρ c (Proc.devRef .tc main_arg8) : FVec Ideal S32 .f32) = a8 m c := by
  show StableHlo.after hostOps0 (W0 m ρ c) (Proc.devRef .tc main_arg8) = _
  after_results_simp <;> rfl
theorem W2_a8 : (W2 m ρ c (Proc.devRef .tc main_arg8) : FVec Ideal S32 .f32) = a8 m c :=
  (W2_of_ne m ρ c main_arg8 (by decide)).trans (W1_a8 m ρ c)
theorem W3_a8 : (W3 m ρ c (Proc.devRef .tc main_arg8) : FVec Ideal S32 .f32) = a8 m c := by
  show StableHlo.after hostOps1 (W2 m ρ c) (Proc.devRef .tc main_arg8) = _
  after_results_simp
  exact W2_a8 m ρ c
theorem W4_a8 : (W4 m ρ c (Proc.devRef .tc main_arg8) : FVec Ideal S32 .f32) = a8 m c :=
  (W4_of_ne m ρ c main_arg8 (by decide)).trans (W3_a8 m ρ c)
theorem W5_a8 : (W5 m ρ c (Proc.devRef .tc main_arg8) : FVec Ideal S32 .f32) = a8 m c :=
  (W5_of_ne m ρ c main_arg8 (by decide)).trans (W4_a8 m ρ c)
theorem W6_a8 : (W6 m ρ c (Proc.devRef .tc main_arg8) : FVec Ideal S32 .f32) = a8 m c := by
  show StableHlo.after hostOps3 (W5 m ρ c) (Proc.devRef .tc main_arg8) = _
  after_results_simp
  exact W5_a8 m ρ c
theorem W7_a8 : (W7 m ρ c (Proc.devRef .tc main_arg8) : FVec Ideal S32 .f32) = a8 m c :=
  (W7_of_ne m ρ c main_arg8 (by decide)).trans (W6_a8 m ρ c)
theorem W1_a9 : (W1 m ρ c (Proc.devRef .tc main_arg9) : FVec Ideal S64x32 .f32) = a9 m c := by
  show StableHlo.after hostOps0 (W0 m ρ c) (Proc.devRef .tc main_arg9) = _
  after_results_simp <;> rfl
theorem W2_a9 : (W2 m ρ c (Proc.devRef .tc main_arg9) : FVec Ideal S64x32 .f32) = a9 m c :=
  (W2_of_ne m ρ c main_arg9 (by decide)).trans (W1_a9 m ρ c)
theorem W3_a9 : (W3 m ρ c (Proc.devRef .tc main_arg9) : FVec Ideal S64x32 .f32) = a9 m c := by
  show StableHlo.after hostOps1 (W2 m ρ c) (Proc.devRef .tc main_arg9) = _
  after_results_simp
  exact W2_a9 m ρ c
theorem W4_a9 : (W4 m ρ c (Proc.devRef .tc main_arg9) : FVec Ideal S64x32 .f32) = a9 m c :=
  (W4_of_ne m ρ c main_arg9 (by decide)).trans (W3_a9 m ρ c)
theorem W5_a9 : (W5 m ρ c (Proc.devRef .tc main_arg9) : FVec Ideal S64x32 .f32) = a9 m c :=
  (W5_of_ne m ρ c main_arg9 (by decide)).trans (W4_a9 m ρ c)
theorem W6_a9 : (W6 m ρ c (Proc.devRef .tc main_arg9) : FVec Ideal S64x32 .f32) = a9 m c := by
  show StableHlo.after hostOps3 (W5 m ρ c) (Proc.devRef .tc main_arg9) = _
  after_results_simp
  exact W5_a9 m ρ c
theorem W7_a9 : (W7 m ρ c (Proc.devRef .tc main_arg9) : FVec Ideal S64x32 .f32) = a9 m c :=
  (W7_of_ne m ρ c main_arg9 (by decide)).trans (W6_a9 m ρ c)
theorem W8_a9 : (W8 m ρ c (Proc.devRef .tc main_arg9) : FVec Ideal S64x32 .f32) = a9 m c := by
  show StableHlo.after hostOps4 (W7 m ρ c) (Proc.devRef .tc main_arg9) = _
  after_results_simp
  exact W7_a9 m ρ c
theorem W1_a10 : (W1 m ρ c (Proc.devRef .tc main_arg10) : FVec Ideal S32 .f32) = a10 m c := by
  show StableHlo.after hostOps0 (W0 m ρ c) (Proc.devRef .tc main_arg10) = _
  after_results_simp <;> rfl
theorem W2_a10 : (W2 m ρ c (Proc.devRef .tc main_arg10) : FVec Ideal S32 .f32) = a10 m c :=
  (W2_of_ne m ρ c main_arg10 (by decide)).trans (W1_a10 m ρ c)
theorem W3_a10 : (W3 m ρ c (Proc.devRef .tc main_arg10) : FVec Ideal S32 .f32) = a10 m c := by
  show StableHlo.after hostOps1 (W2 m ρ c) (Proc.devRef .tc main_arg10) = _
  after_results_simp
  exact W2_a10 m ρ c
theorem W4_a10 : (W4 m ρ c (Proc.devRef .tc main_arg10) : FVec Ideal S32 .f32) = a10 m c :=
  (W4_of_ne m ρ c main_arg10 (by decide)).trans (W3_a10 m ρ c)
theorem W5_a10 : (W5 m ρ c (Proc.devRef .tc main_arg10) : FVec Ideal S32 .f32) = a10 m c :=
  (W5_of_ne m ρ c main_arg10 (by decide)).trans (W4_a10 m ρ c)
theorem W6_a10 : (W6 m ρ c (Proc.devRef .tc main_arg10) : FVec Ideal S32 .f32) = a10 m c := by
  show StableHlo.after hostOps3 (W5 m ρ c) (Proc.devRef .tc main_arg10) = _
  after_results_simp
  exact W5_a10 m ρ c
theorem W7_a10 : (W7 m ρ c (Proc.devRef .tc main_arg10) : FVec Ideal S32 .f32) = a10 m c :=
  (W7_of_ne m ρ c main_arg10 (by decide)).trans (W6_a10 m ρ c)

/-! ## After region 0: x · W1 -/

/-- Region 0 leaves the reference's first matrix product. -/
theorem W2_v12 : (W2 m ρ c (Proc.devRef .tc main_v12) : FVec Ideal S50000x64 .f32) = val_main_v11 (F := Ideal) (a0 m c) (a3 m c) :=
  (((W2_arr m ρ c 2).trans (Region0.array_eq (V1 m ρ) c)).trans
    (congrArg₂ Region0.product (W1_a0 m ρ c) (W1_a3 m ρ c))).trans
    (Region0.dotGeneral_eq_product Cert.ReferenceIdeal.dot_S50000x128_S128x64_S50000x64_1_0_0_1_n_n rfl (a0 m c) (a3 m c)).symm
theorem W2_v1 : (W2 m ρ c (Proc.devRef .tc main_v1) : (⟨S800000, .i32⟩ : BufTy).Contents (Elt Ideal)) = val_main_v1 (F := Ideal) (a1 m c) :=
  (W2_of_ne m ρ c main_v1 (by decide)).trans (W1_v1 m ρ c)
theorem W2_v3 : (W2 m ρ c (Proc.devRef .tc main_v3) : (⟨S800000, .i32⟩ : BufTy).Contents (Elt Ideal)) = val_main_v3 (F := Ideal) (a1 m c) :=
  (W2_of_ne m ρ c main_v3 (by decide)).trans (W1_v3 m ρ c)
theorem W2_v10 : (W2 m ρ c (Proc.devRef .tc main_v10) : FVec Ideal S50000 .f32) = val_main_v10 (F := Ideal) (a1 m c) :=
  (W2_of_ne m ρ c main_v10 (by decide)).trans (W1_v10 m ρ c)
theorem W2_v11 : (W2 m ρ c (Proc.devRef .tc main_v11) : FVec Ideal S50000 .f32) = val_main_v40 (F := Ideal) (a1 m c) :=
  (W2_of_ne m ρ c main_v11 (by decide)).trans (W1_v11 m ρ c)
theorem W2_a4 : (W2 m ρ c (Proc.devRef .tc main_arg4) : FVec Ideal S64 .f32) = a4 m c :=
  (W2_of_ne m ρ c main_arg4 (by decide)).trans (W1_a4 m ρ c)
theorem W2_a5 : (W2 m ρ c (Proc.devRef .tc main_arg5) : FVec Ideal S64x64 .f32) = a5 m c :=
  (W2_of_ne m ρ c main_arg5 (by decide)).trans (W1_a5 m ρ c)

/-! ## After the second stretch: the first layer's aggregate plus self term, and the bias as a row -/

/-- The aggregated messages plus the self term of the first layer. -/
theorem W3_v44 : (W3 m ρ c (Proc.devRef .tc main_v44) : FVec Ideal S50000x64 .f32) = val_main_v44 (F := Ideal) (a0 m c) (a1 m c) (a3 m c) := by
  show StableHlo.after hostOps1 (W2 m ρ c) (Proc.devRef .tc main_v44) = _
  after_results_simp
  rw [W2_v12 m ρ c, W2_v1 m ρ c, W2_v3 m ρ c, W2_v10 m ρ c, W2_v11 m ρ c]
  rfl

/-- The first bias reshaped to a row is the reference's broadcast of it to a row. -/
theorem W3_v45 : (W3 m ρ c (Proc.devRef .tc main_v45) : FVec Ideal S1x64 .f32) = val_main_v45 (F := Ideal) (a4 m c) := by
  show StableHlo.after hostOps1 (W2 m ρ c) (Proc.devRef .tc main_v45) = _
  after_results_simp
  rw [W2_a4 m ρ c]
  exact Cert.Layout.row_reshape_eq_broadcast (a4 m c) _ _
theorem W3_v1 : (W3 m ρ c (Proc.devRef .tc main_v1) : (⟨S800000, .i32⟩ : BufTy).Contents (Elt Ideal)) = val_main_v1 (F := Ideal) (a1 m c) := by
  show StableHlo.after hostOps1 (W2 m ρ c) (Proc.devRef .tc main_v1) = _
  after_results_simp
  exact W2_v1 m ρ c
theorem W3_v3 : (W3 m ρ c (Proc.devRef .tc main_v3) : (⟨S800000, .i32⟩ : BufTy).Contents (Elt Ideal)) = val_main_v3 (F := Ideal) (a1 m c) := by
  show StableHlo.after hostOps1 (W2 m ρ c) (Proc.devRef .tc main_v3) = _
  after_results_simp
  exact W2_v3 m ρ c
theorem W3_v10 : (W3 m ρ c (Proc.devRef .tc main_v10) : FVec Ideal S50000 .f32) = val_main_v10 (F := Ideal) (a1 m c) := by
  show StableHlo.after hostOps1 (W2 m ρ c) (Proc.devRef .tc main_v10) = _
  after_results_simp
  exact W2_v10 m ρ c
theorem W3_v11 : (W3 m ρ c (Proc.devRef .tc main_v11) : FVec Ideal S50000 .f32) = val_main_v40 (F := Ideal) (a1 m c) := by
  show StableHlo.after hostOps1 (W2 m ρ c) (Proc.devRef .tc main_v11) = _
  after_results_simp
  exact W2_v11 m ρ c
theorem W3_a5 : (W3 m ρ c (Proc.devRef .tc main_arg5) : FVec Ideal S64x64 .f32) = a5 m c := by
  show StableHlo.after hostOps1 (W2 m ρ c) (Proc.devRef .tc main_arg5) = _
  after_results_simp
  exact W2_a5 m ρ c

/-! ## After region 1: the first layer's activations -/

/-- Region 1 leaves the reference's first layer: the maximum of the aggregate plus bias with zero. -/
theorem W4_v46 : (W4 m ρ c (Proc.devRef .tc main_v46) : FVec Ideal S50000x64 .f32)
    = val_main_v48 (F := Ideal) (a0 m c) (a1 m c) (a3 m c) (a4 m c) :=
  (((W4_arr m ρ c 2).trans (Region1.array_eq (V3 m ρ) c)).trans
    (congrArg₂ Region1.biasRelu (W3_v44 m ρ c) (W3_v45 m ρ c))).trans
    (Region1.host_eq_biasRelu (val_main_v44 (F := Ideal) (a0 m c) (a1 m c) (a3 m c)) (val_main_v45 (F := Ideal) (a4 m c))
      Cert.ReferenceIdeal.Gen.bcast_S1x64_S50000x64_0_1 Cert.ReferenceIdeal.Gen.bcast_S_S50000x64).symm
theorem W4_v1 : (W4 m ρ c (Proc.devRef .tc main_v1) : (⟨S800000, .i32⟩ : BufTy).Contents (Elt Ideal)) = val_main_v1 (F := Ideal) (a1 m c) :=
  (W4_of_ne m ρ c main_v1 (by decide)).trans (W3_v1 m ρ c)
theorem W4_v3 : (W4 m ρ c (Proc.devRef .tc main_v3) : (⟨S800000, .i32⟩ : BufTy).Contents (Elt Ideal)) = val_main_v3 (F := Ideal) (a1 m c) :=
  (W4_of_ne m ρ c main_v3 (by decide)).trans (W3_v3 m ρ c)
theorem W4_v10 : (W4 m ρ c (Proc.devRef .tc main_v10) : FVec Ideal S50000 .f32) = val_main_v10 (F := Ideal) (a1 m c) :=
  (W4_of_ne m ρ c main_v10 (by decide)).trans (W3_v10 m ρ c)
theorem W4_v11 : (W4 m ρ c (Proc.devRef .tc main_v11) : FVec Ideal S50000 .f32) = val_main_v40 (F := Ideal) (a1 m c) :=
  (W4_of_ne m ρ c main_v11 (by decide)).trans (W3_v11 m ρ c)
theorem W4_a5 : (W4 m ρ c (Proc.devRef .tc main_arg5) : FVec Ideal S64x64 .f32) = a5 m c :=
  (W4_of_ne m ρ c main_arg5 (by decide)).trans (W3_a5 m ρ c)

/-! ## After region 2: the first layer's activations times W2 -/

/-- Region 2 leaves the reference's second matrix product. -/
theorem W5_v47 : (W5 m ρ c (Proc.devRef .tc main_v47) : FVec Ideal S50000x64 .f32)
    = val_main_v49 (F := Ideal) (a0 m c) (a1 m c) (a3 m c) (a4 m c) (a5 m c) :=
  (((W5_arr m ρ c 2).trans (Region2.array_eq (V4 m ρ) c)).trans
    (congrArg₂ Region2.product (W4_v46 m ρ c) (W4_a5 m ρ c))).trans
    (Region2.dotGeneral_eq_product Cert.ReferenceIdeal.dot_S50000x64_S64x64_S50000x64_1_0_0_1_n_n rfl
      (val_main_v48 (F := Ideal) (a0 m c) (a1 m c) (a3 m c) (a4 m c)) (a5 m c)).symm
theorem W5_v1 : (W5 m ρ c (Proc.devRef .tc main_v1) : (⟨S800000, .i32⟩ : BufTy).Contents (Elt Ideal)) = val_main_v1 (F := Ideal) (a1 m c) :=
  (W5_of_ne m ρ c main_v1 (by decide)).trans (W4_v1 m ρ c)
theorem W5_v3 : (W5 m ρ c (Proc.devRef .tc main_v3) : (⟨S800000, .i32⟩ : BufTy).Contents (Elt Ideal)) = val_main_v3 (F := Ideal) (a1 m c) :=
  (W5_of_ne m ρ c main_v3 (by decide)).trans (W4_v3 m ρ c)
theorem W5_v10 : (W5 m ρ c (Proc.devRef .tc main_v10) : FVec Ideal S50000 .f32) = val_main_v10 (F := Ideal) (a1 m c) :=
  (W5_of_ne m ρ c main_v10 (by decide)).trans (W4_v10 m ρ c)
theorem W5_v11 : (W5 m ρ c (Proc.devRef .tc main_v11) : FVec Ideal S50000 .f32) = val_main_v40 (F := Ideal) (a1 m c) :=
  (W5_of_ne m ρ c main_v11 (by decide)).trans (W4_v11 m ρ c)

/-! ## After the third stretch: the second layer's aggregate plus self term, and the bias as a row -/

/-- The aggregated messages plus the self term of the second layer. -/
theorem W6_v79 : (W6 m ρ c (Proc.devRef .tc main_v79) : FVec Ideal S50000x64 .f32)
    = val_main_v82 (F := Ideal) (a0 m c) (a1 m c) (a3 m c) (a4 m c) (a5 m c) := by
  show StableHlo.after hostOps3 (W5 m ρ c) (Proc.devRef .tc main_v79) = _
  after_results_simp
  rw [W5_v47 m ρ c, W5_v1 m ρ c, W5_v3 m ρ c, W5_v10 m ρ c, W5_v11 m ρ c]
  rfl

/-- The second bias reshaped to a row is the reference's broadcast of it to a row. -/
theorem W6_v80 : (W6 m ρ c (Proc.devRef .tc main_v80) : FVec Ideal S1x64 .f32) = val_main_v83 (F := Ideal) (a6 m c) := by
  show StableHlo.after hostOps3 (W5 m ρ c) (Proc.devRef .tc main_v80) = _
  after_results_simp
  rw [W5_a6 m ρ c]
  exact Cert.Layout.row_reshape_eq_broadcast (a6 m c) _ _

/-! ## After region 3: the second layer's activations -/

/-- Region 3 leaves the reference's second layer. -/
theorem W7_v81 : (W7 m ρ c (Proc.devRef .tc main_v81) : FVec Ideal S50000x64 .f32)
    = val_main_v86 (F := Ideal) (a0 m c) (a1 m c) (a3 m c) (a4 m c) (a5 m c) (a6 m c) :=
  (((W7_arr m ρ c 2).trans (Region3.array_eq (V6 m ρ) c)).trans
    (congrArg₂ Region3.biasRelu (W6_v79 m ρ c) (W6_v80 m ρ c))).trans
    (Region3.host_eq_biasRelu (val_main_v82 (F := Ideal) (a0 m c) (a1 m c) (a3 m c) (a4 m c) (a5 m c)) (val_main_v83 (F := Ideal) (a6 m c))
      Cert.ReferenceIdeal.Gen.bcast_S1x64_S50000x64_0_1 Cert.ReferenceIdeal.Gen.bcast_S_S50000x64).symm

/-! ## After the fourth stretch: the pooled means, and the two output biases as rows -/

/-- The per-graph sums divided by the per-graph counts (at least one). -/
theorem W8_v93 : (W8 m ρ c (Proc.devRef .tc main_v93) : FVec Ideal S512x64 .f32)
    = val_main_v98 (F := Ideal) (a0 m c) (a1 m c) (a2 m c) (a3 m c) (a4 m c) (a5 m c) (a6 m c) := by
  show StableHlo.after hostOps4 (W7 m ρ c) (Proc.devRef .tc main_v93) = _
  after_results_simp
  rw [W7_v81 m ρ c, W7_a2 m ρ c]
  rfl

/-- The first output bias reshaped to a row is the reference's broadcast of it to a row. -/
theorem W8_v94 : (W8 m ρ c (Proc.devRef .tc main_v94) : FVec Ideal S1x32 .f32) = val_main_v100 (F := Ideal) (a8 m c) := by
  show StableHlo.after hostOps4 (W7 m ρ c) (Proc.devRef .tc main_v94) = _
  after_results_simp
  rw [W7_a8 m ρ c]
  exact Cert.Layout.row_reshape_eq_broadcast (a8 m c) _ _

/-- The second output bias reshaped to a row is the reference's broadcast of it to a row. -/
theorem W8_v95 : (W8 m ρ c (Proc.devRef .tc main_v95) : FVec Ideal S1x32 .f32) = val_main_v104 (F := Ideal) (a10 m c) := by
  show StableHlo.after hostOps4 (W7 m ρ c) (Proc.devRef .tc main_v95) = _
  after_results_simp
  rw [W7_a10 m ρ c]
  exact Cert.Layout.row_reshape_eq_broadcast (a10 m c) _ _

/-! ## After region 4: the two results -/

/-- The first result of the kernel is the reference's first result, as a function of the argument arrays. -/
theorem W9_out0 : (W9 m ρ c (Proc.devRef .tc main_v96_0) : FVec Ideal S512x32 .f32)
    = val_main_v102 (F := Ideal) (a0 m c) (a1 m c) (a2 m c) (a3 m c) (a4 m c) (a5 m c) (a6 m c) (a7 m c) (a8 m c) :=
  (((W9_arr m ρ c 5).trans (Region4.array5_eq (V8 m ρ) c)).trans
    (congr3 Region4.projection (W8_v93 m ρ c) (W8_a7 m ρ c) (W8_v94 m ρ c))).trans
    (Region4.host_eq_projection Cert.ReferenceIdeal.dot_S512x64_S64x32_S512x32_1_0_0_1_n_n rfl
      Cert.ReferenceIdeal.Gen.bcast_S1x32_S512x32_0_1
      (val_main_v98 (F := Ideal) (a0 m c) (a1 m c) (a2 m c) (a3 m c) (a4 m c) (a5 m c) (a6 m c)) (a7 m c) (val_main_v100 (F := Ideal) (a8 m c))).symm

/-- The second result of the kernel is the reference's second result, as a function of the argument arrays. -/
theorem W9_out1 : (W9 m ρ c (Proc.devRef .tc main_v96_1) : FVec Ideal S512x32 .f32)
    = val_main_v106 (F := Ideal) (a0 m c) (a1 m c) (a2 m c) (a3 m c) (a4 m c) (a5 m c) (a6 m c) (a9 m c) (a10 m c) :=
  (((W9_arr m ρ c 6).trans (Region4.array6_eq (V8 m ρ) c)).trans
    (congr3 Region4.projection (W8_v93 m ρ c) (W8_a9 m ρ c) (W8_v95 m ρ c))).trans
    (Region4.host_eq_projection Cert.ReferenceIdeal.dot_S512x64_S64x32_S512x32_1_0_0_1_n_n rfl
      Cert.ReferenceIdeal.Gen.bcast_S1x32_S512x32_0_1
      (val_main_v98 (F := Ideal) (a0 m c) (a1 m c) (a2 m c) (a3 m c) (a4 m c) (a5 m c) (a6 m c)) (a9 m c) (val_main_v104 (F := Ideal) (a10 m c))).symm

end Cert.KernelIdeal.Stages

end
-- ==== Proof.Claims.lean ====
/-
  The claims of the certificate.

  The idealized kernel's run ends with every buffer at the last boundary of the fold over its segments; its two result
  buffers there hold the reference's two result stages as functions of the argument arrays, and its argument buffers
  hold what they were launched with.  The reference's run ends with its results at the same stages of its own
  arguments.  From memories agreeing on the arguments the two programs therefore end with equal results, entry by
  entry, over the extended reals.  No finiteness of the inputs is used: both programs compose the same operations, the
  kernel's regions standing where the reference has a matrix product or a bias-and-maximum.
-/
import proofs.«117150_j46866683134564_1_alg».proof.Defs
import proofs.«117150_j46866683134564_1_alg».proof.Proof.Gen.Kernel.Frame
import proofs.«117150_j46866683134564_1_alg».proof.Proof.Gen.KernelIdeal.Frame
import proofs.«117150_j46866683134564_1_alg».proof.Proof.Gen.ReferenceIdeal.Run
import proofs.«117150_j46866683134564_1_alg».proof.Proof.Gen.ReferenceIdeal.Read
import proofs.«117150_j46866683134564_1_alg».proof.Proof.Gen.Pre_finite_inputs
import proofs.«117150_j46866683134564_1_alg».proof.Proof.KernelRun
import proofs.«117150_j46866683134564_1_alg».proof.Proof.Stages

set_option maxRecDepth 16384

noncomputable section

open Idealize.ShloMosaic Idealize.ShloMosaic.TcCoe Idealize.SL.Sem

namespace Cert.KernelIdeal.Whole

open Cert.KernelIdeal Cert.KernelIdeal.Gen Cert.ReferenceIdeal.Read

variable (m : (ℓ : Loc nD τ sig) → Buf (Elt Ideal) ℓ) (ρ : Dev nD → PrngReg)

/-- The run of the idealized kernel with its results named: each result buffer ends at the reference's stage of the
    argument arrays, each argument buffer as launched. -/
theorem run_results : θ_run (defs (F := Ideal)) (onTc (τ := τ) (main (F := Ideal))) ⟨m, fun _ => 0, ρ⟩ (fun r => ∀ c : Dev nD,
      r.2.mem ((c : Thread nD τ).loc main_v96_0)
        = val_main_v102 (F := Ideal) (Cert.KernelIdeal.Stages.a0 m c) (Cert.KernelIdeal.Stages.a1 m c) (Cert.KernelIdeal.Stages.a2 m c) (Cert.KernelIdeal.Stages.a3 m c) (Cert.KernelIdeal.Stages.a4 m c) (Cert.KernelIdeal.Stages.a5 m c) (Cert.KernelIdeal.Stages.a6 m c) (Cert.KernelIdeal.Stages.a7 m c) (Cert.KernelIdeal.Stages.a8 m c)
      ∧ r.2.mem ((c : Thread nD τ).loc main_v96_1)
        = val_main_v106 (F := Ideal) (Cert.KernelIdeal.Stages.a0 m c) (Cert.KernelIdeal.Stages.a1 m c) (Cert.KernelIdeal.Stages.a2 m c) (Cert.KernelIdeal.Stages.a3 m c) (Cert.KernelIdeal.Stages.a4 m c) (Cert.KernelIdeal.Stages.a5 m c) (Cert.KernelIdeal.Stages.a6 m c) (Cert.KernelIdeal.Stages.a9 m c) (Cert.KernelIdeal.Stages.a10 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c =>
    ⟨(read_final m ρ h c main_v96_0 (by decide)).trans (Cert.KernelIdeal.Stages.W9_out0 m ρ c),
      (read_final m ρ h c main_v96_1 (by decide)).trans (Cert.KernelIdeal.Stages.W9_out1 m ρ c),
      (Cert.KernelIdeal.Whole.read_final m ρ h c main_arg0 (by decide)).trans (W9_main_arg0 m ρ c),
      (Cert.KernelIdeal.Whole.read_final m ρ h c main_arg1 (by decide)).trans (W9_main_arg1 m ρ c),
      (Cert.KernelIdeal.Whole.read_final m ρ h c main_arg2 (by decide)).trans (W9_main_arg2 m ρ c),
      (Cert.KernelIdeal.Whole.read_final m ρ h c main_arg3 (by decide)).trans (W9_main_arg3 m ρ c),
      (Cert.KernelIdeal.Whole.read_final m ρ h c main_arg4 (by decide)).trans (W9_main_arg4 m ρ c),
      (Cert.KernelIdeal.Whole.read_final m ρ h c main_arg5 (by decide)).trans (W9_main_arg5 m ρ c),
      (Cert.KernelIdeal.Whole.read_final m ρ h c main_arg6 (by decide)).trans (W9_main_arg6 m ρ c),
      (Cert.KernelIdeal.Whole.read_final m ρ h c main_arg7 (by decide)).trans (W9_main_arg7 m ρ c),
      (Cert.KernelIdeal.Whole.read_final m ρ h c main_arg8 (by decide)).trans (W9_main_arg8 m ρ c),
      (Cert.KernelIdeal.Whole.read_final m ρ h c main_arg9 (by decide)).trans (W9_main_arg9 m ρ c),
      (Cert.KernelIdeal.Whole.read_final m ρ h c main_arg10 (by decide)).trans (W9_main_arg10 m ρ c)⟩)
    (run_buffers m ρ)

end Cert.KernelIdeal.Whole

namespace Cert.Proof.Claims

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments, the idealized kernel and the idealized reference end with equal results:
    both results are the reference's stages of the argument arrays. -/
theorem algebraic : Cert.algebraic_KernelIdeal_ReferenceIdeal := by
  intro m ρ m' ρ' _ hagree
  refine ⟨_, _, Cert.KernelIdeal.Whole.run_results m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10⟩ := hagree c
  refine ⟨(h c).1.trans ?_, (h c).2.1.trans ?_, (h c).2.2⟩
  · rw [Cert.ReferenceIdeal.Read.val_main_v102_eq m' c, e0, e1, e2, e3, e4, e5, e6, e7, e8]
  · rw [Cert.ReferenceIdeal.Read.val_main_v106_eq m' c, e0, e1, e2, e3, e4, e5, e6, e9, e10]

end Cert.Proof.Claims

end
-- ==== Proof.lean ====
/-
  The proof of `Cert.Claim`: the three frames, the idealization's statement and the equality of results over the
  extended reals, for a graph-convolution encoder whose dense steps run as five kernel regions.

  The idealization rewrote nothing, so its statement is trivial.  The frames of the two kernel programs are the runs of
  their segments; the reference's frame is its run with the results dropped.  The equality of results is in
  Proof/Claims.lean: each region's result array is the whole-array operation the reference applies in its place
  (Proof/Region0.lean to Proof/Region4.lean), the host operations between the regions are the reference's own
  (Proof/Stages.lean), and the kernel's run ends with every buffer at the last boundary of that chain
  (Proof/KernelRun.lean).
-/
import proofs.«117150_j46866683134564_1_alg».proof.Defs
import proofs.«117150_j46866683134564_1_alg».proof.Proof.Gen.Kernel
import proofs.«117150_j46866683134564_1_alg».proof.Proof.Gen.Kernel.Skeleton
import proofs.«117150_j46866683134564_1_alg».proof.Proof.Gen.Kernel.Launch
import proofs.«117150_j46866683134564_1_alg».proof.Proof.Gen.Kernel.Points
import proofs.«117150_j46866683134564_1_alg».proof.Proof.Gen.Kernel.Frame
import proofs.«117150_j46866683134564_1_alg».proof.Proof.Gen.KernelIdeal
import proofs.«117150_j46866683134564_1_alg».proof.Proof.Gen.KernelIdeal.Skeleton
import proofs.«117150_j46866683134564_1_alg».proof.Proof.Gen.KernelIdeal.Launch
import proofs.«117150_j46866683134564_1_alg».proof.Proof.Gen.KernelIdeal.Points
import proofs.«117150_j46866683134564_1_alg».proof.Proof.Gen.KernelIdeal.Frame
import proofs.«117150_j46866683134564_1_alg».proof.Proof.Gen.ReferenceIdeal
import proofs.«117150_j46866683134564_1_alg».proof.Proof.Gen.ReferenceIdeal.Run
import proofs.«117150_j46866683134564_1_alg».proof.Proof.Gen.ReferenceIdeal.Read
import proofs.«117150_j46866683134564_1_alg».proof.Proof.Gen.Pre_finite_inputs
import proofs.«117150_j46866683134564_1_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, trivial, Claims.algebraic⟩

end Cert.Proof

end
